-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S3200000 : Shape := ⟨1, ![3200000]⟩
abbrev S32x768 : Shape := ⟨2, ![32, 768]⟩
abbrev S32 : Shape := ⟨1, ![32]⟩
abbrev S8x32 : Shape := ⟨2, ![8, 32]⟩
abbrev S8 : Shape := ⟨1, ![8]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S32x768 : S_.BroadcastsInDim S32x768 (![] : Fin 0 → Fin S32x768.rank)
  reducesTo_S32x768_S_d0_1 : S32x768.ReducesTo [0, 1] S_
  bcast_S_S32 : S_.BroadcastsInDim S32 (![] : Fin 0 → Fin S32.rank)
  reducesTo_S32_S_d0 : S32.ReducesTo [0] S_
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S8x32 .f32) (main_arg7 : FVec F S8x32 .f32) (main_arg8 : FVec F S8 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S8x32 .f32 := Host.absf main_arg6
  let main_cst_6 : FVec F S_ .f32 := constant S_ .f32 0x7F800000#32
  let main_v20 : FVec F S8x32 .f32 := broadcastInDim S8x32 ![] bcast_S_S8x32 main_cst_6
  let main_v21 : IVec S8x32 1 := cmpf .olt main_v19 main_v20
  let main_c_7 : IVec S_ 1 := constantI S_ 1 1#1
  let main_v22 : IVec S_ 1 := (fun x v => Host.reduce IntOp.andi x v reducesTo_S8x32_S_d0_1 h_S_) main_v21 main_c_7
  let main_v23 : IVec S_ 1 := andi main_v18 main_v22
  let main_v24 : FVec F S8x32 .f32 := Host.absf main_arg7
  let main_cst_8 : FVec F S_ .f32 := constant S_ .f32 0x7F800000#32
  let main_v25 : FVec F S8x32 .f32 := broadcastInDim S8x32 ![] bcast_S_S8x32 main_cst_8
  let main_v26 : IVec S8x32 1 := cmpf .olt main_v24 main_v25
  let main_c_9 : IVec S_ 1 := constantI S_ 1 1#1
  let main_v27 : IVec S_ 1 := (fun x v => Host.reduce IntOp.andi x v reducesTo_S8x32_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x768 .f32) (main_arg1 : IVec S3200000 32) (main_arg2 : IVec S3200000 32) (main_arg3 : FVec F S32x768 .f32) (main_arg4 : FVec F S32x768 .f32) (main_arg5 : FVec F S32 .f32) (main_arg6 : FVec F S8x32 .f32) (main_arg7 : FVec F S8x32 .f32) (main_arg8 : FVec F S8 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S32x768 .f32 := Host.absf main_arg3
  let main_cst_0 : FVec F S_ .f32 := constant S_ .f32 0x7F800000#32
  let main_v5 : FVec F S32x768 .f32 := broadcastInDim S32x768 ![] bcast_S_S32x768 main_cst_0
  let main_v6 : IVec S32x768 1 := cmpf .olt main_v4 main_v5
  let main_c_1 : IVec S_ 1 := constantI S_ 1 1#1
  let main_v7 : IVec S_ 1 := (fun x v => Host.reduce IntOp.andi x v reducesTo_S32x768_S_d0_1 h_S_) main_v6 main_c_1
  let main_v8 : IVec S_ 1 := andi main_v3 main_v7
  let main_v9 : FVec F S32x768 .f32 := Host.absf main_arg4
  let main_cst_2 : FVec F S_ .f32 := constant S_ .f32 0x7F800000#32
  let main_v10 : FVec F S32x768 .f32 := broadcastInDim S32x768 ![] bcast_S_S32x768 main_cst_2
  let main_v11 : IVec S32x768 1 := cmpf .olt main_v9 main_v10
  let main_c_3 : IVec S_ 1 := constantI S_ 1 1#1
  let main_v12 : IVec S_ 1 := (fun x v => Host.reduce IntOp.andi x v reducesTo_S32x768_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_v13 main_v16
-- ==== Kernel.lean ====
abbrev S100000x768 : Shape := ⟨2, ![100000, 768]⟩
abbrev S3200000 : Shape := ⟨1, ![3200000]⟩
abbrev S32x768 : Shape := ⟨2, ![32, 768]⟩
abbrev S32 : Shape := ⟨1, ![32]⟩
abbrev S8x32 : Shape := ⟨2, ![8, 32]⟩
abbrev S8 : Shape := ⟨1, ![8]⟩
abbrev S64x768 : Shape := ⟨2, ![64, 768]⟩
abbrev S768x64 : Shape := ⟨2, ![768, 64]⟩
abbrev S100000x64 : Shape := ⟨2, ![100000, 64]⟩
abbrev S4000x768 : Shape := ⟨2, ![4000, 768]⟩
abbrev S4000x64 : Shape := ⟨2, ![4000, 64]⟩
abbrev S100000x32 : Shape := ⟨2, ![100000, 32]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x32 : Shape := ⟨2, ![3200000, 32]⟩
abbrev S1x32 : Shape := ⟨2, ![1, 32]⟩
abbrev S16x32 : Shape := ⟨2, ![16, 32]⟩
abbrev S32x16 : Shape := ⟨2, ![32, 16]⟩
abbrev S100000x16 : Shape := ⟨2, ![100000, 16]⟩
abbrev S10000x32 : Shape := ⟨2, ![10000, 32]⟩
abbrev S10000x16 : Shape := ⟨2, ![10000, 16]⟩
abbrev S100000x8 : Shape := ⟨2, ![100000, 8]⟩
abbrev S3200000x8 : Shape := ⟨2, ![3200000, 8]⟩
abbrev S1x8 : Shape := ⟨2, ![1, 8]⟩

abbrev nBuf : Space → Nat
  | .hbm => 75
  | .vmem => 10
  | .smem => 0
  | _ => 0

abbrev bufTy : (tb : Table) → Fin (tcTables nBuf tb) → BufTy
  | .hbm, ⟨0, _⟩ => ⟨S100000x768, .f32⟩
  | .hbm, ⟨1, _⟩ => ⟨S3200000, .i32⟩
  | .hbm, ⟨2, _⟩ => ⟨S3200000, .i32⟩
  | .hbm, ⟨3, _⟩ => ⟨S32x768, .f32⟩
  | .hbm, ⟨4, _⟩ => ⟨S32x768, .f32⟩
  | .hbm, ⟨5, _⟩ => ⟨S32, .f32⟩
  | .hbm, ⟨6, _⟩ => ⟨S8x32, .f32⟩
  | .hbm, ⟨7, _⟩ => ⟨S8x32, .f32⟩
  | .hbm, ⟨8, _⟩ => ⟨S8, .f32⟩
  | .hbm, ⟨9, _⟩ => ⟨S64x768, .f32⟩
  | .hbm, ⟨10, _⟩ => ⟨S768x64, .f32⟩
  | .hbm, ⟨11, _⟩ => ⟨S768x64, .bf16⟩
  | .hbm, ⟨12, _⟩ => ⟨S100000x64, .f32⟩
  | .hbm, ⟨13, _⟩ => ⟨S100000x32, .f32⟩
  | .hbm, ⟨14, _⟩ => ⟨S100000x32, .f32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x32, .f32⟩
  | .hbm, ⟨37, _⟩ => ⟨S_, .f32⟩
  | .hbm, ⟨38, _⟩ => ⟨S100000x32, .f32⟩
  | .hbm, ⟨39, _⟩ => ⟨S3200000x1, .i32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S100000x32, .f32⟩
  | .hbm, ⟨44, _⟩ => ⟨S1x32, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S100000x32, .f32⟩
  | .hbm, ⟨49, _⟩ => ⟨S100000x32, .f32⟩
  | .hbm, ⟨50, _⟩ => ⟨S16x32, .f32⟩
  | .hbm, ⟨51, _⟩ => ⟨S32x16, .f32⟩
  | .hbm, ⟨52, _⟩ => ⟨S32x16, .bf16⟩
  | .hbm, ⟨53, _⟩ => ⟨S100000x16, .f32⟩
  | .hbm, ⟨54, _⟩ => ⟨S100000x8, .f32⟩
  | .hbm, ⟨55, _⟩ => ⟨S100000x8, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x8, .f32⟩
  | .hbm, ⟨65, _⟩ => ⟨S_, .f32⟩
  | .hbm, ⟨66, _⟩ => ⟨S100000x8, .f32⟩
  | .hbm, ⟨67, _⟩ => ⟨S3200000x1, .i32⟩
  | .hbm, ⟨68, _⟩ => ⟨S100000x8, .f32⟩
  | .hbm, ⟨69, _⟩ => ⟨S100000x8, .f32⟩
  | .hbm, ⟨70, _⟩ => ⟨S100000x8, .f32⟩
  | .hbm, ⟨71, _⟩ => ⟨S100000x8, .f32⟩
  | .hbm, ⟨72, _⟩ => ⟨S1x8, .f32⟩
  | .hbm, ⟨73, _⟩ => ⟨S100000x8, .f32⟩
  | .hbm, ⟨74, _⟩ => ⟨S100000x8, .f32⟩
  | .local _ .vmem, ⟨0, _⟩ => ⟨S4000x768, .f32⟩
  | .local _ .vmem, ⟨1, _⟩ => ⟨S4000x768, .f32⟩
  | .local _ .vmem, ⟨2, _⟩ => ⟨S768x64, .bf16⟩
  | .local _ .vmem, ⟨3, _⟩ => ⟨S4000x64, .f32⟩
  | .local _ .vmem, ⟨4, _⟩ => ⟨S4000x64, .f32⟩
  | .local _ .vmem, ⟨5, _⟩ => ⟨S10000x32, .f32⟩
  | .local _ .vmem, ⟨6, _⟩ => ⟨S10000x32, .f32⟩
  | .local _ .vmem, ⟨7, _⟩ => ⟨S32x16, .bf16⟩
  | .local _ .vmem, ⟨8, _⟩ => ⟨S10000x16, .f32⟩
  | .local _ .vmem, ⟨9, _⟩ => ⟨S10000x16, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  concatenates_S32x768_S32x768_S64x768_d0 : Shape.Concatenates [S32x768, S32x768] S64x768 0
  transposes_S64x768_S768x64_1_0 : S64x768.Transposes [1, 0] S768x64
  bitsLt_bf16_f32 : FTy.bits .bf16 < FTy.bits .f32
  inb_S4000x768_S4000x768_0_0 : ∀ a, (![0, 0] : Fin 2 → Nat) a + S4000x768.size a ≤ S4000x768.size a
  h_S4000x768 : 0 < S4000x768.numel
  inb_S768x64_S768x64_0_0 : ∀ a, (![0, 0] : Fin 2 → Nat) a + S768x64.size a ≤ S768x64.size a
  h_S768x64 : 0 < S768x64.numel
  shapeCasts_S768x64_S768x64 : S768x64.ShapeCasts S768x64
  inb_S4000x64_S4000x64_0_0 : ∀ a, (![0, 0] : Fin 2 → Nat) a + S4000x64.size a ≤ S4000x64.size a
  h_S4000x64 : 0 < S4000x64.numel
  slices_S100000x64_S100000x32_0_0 : S100000x64.Slices ![0, 0] S100000x32
  slices_S100000x64_S100000x32_0_32 : S100000x64.Slices ![0, 32] S100000x32
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S8x32_S8x32_S16x32_d0 : Shape.Concatenates [S8x32, S8x32] S16x32 0
  transposes_S16x32_S32x16_1_0 : S16x32.Transposes [1, 0] S32x16
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S10000x16_S10000x16_0_0 : ∀ a, (![0, 0] : Fin 2 → Nat) a + S10000x16.size a ≤ S10000x16.size a
  h_S10000x16 : 0 < S10000x16.numel
  slices_S100000x16_S100000x8_0_0 : S100000x16.Slices ![0, 0] S100000x8
  slices_S100000x16_S100000x8_0_8 : S100000x16.Slices ![0, 8] S100000x8
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S4000x768_S768x64_S4000x64_1_0_0_1_n_n_wf : DotDims.WF S4000x768 S768x64 S4000x64 [1] [0] [0] [1] [] []
  scatter_S100000_S3200000x1_S3200000_n_0_0_1_wf : ScatterDims.WF S100000 S3200000x1 S3200000 [] [0] [0] 1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x16_S10000x16_1_0_0_1_n_n_wf : DotDims.WF S10000x32 S32x16 S10000x16 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x768.size a ≤ S100000x768.size a
  hwx0_0 : ∀ i : grid0.Coords, EltTy.bits .f32 = 32 ∨ (Rect.block (s := S100000x768) S4000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .bf16 = 32 ∨ (Rect.block (s := S768x64) S768x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .bf16 = 32 ∨ (Rect.block (s := S32x16) S32x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)

variable [Facts₀]

def dot_S4000x768_S768x64_S4000x64_1_0_0_1_n_n : DotDims S4000x768 S768x64 S4000x64 where
  lhsContracting := [1]
  rhsContracting := [0]
  lhsNonContracting := [0]
  rhsNonContracting := [1]
  lhsBatch := []
  rhsBatch := []
  wf := dot_S4000x768_S768x64_S4000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf

abbrev win0_0 : Pipeline.Window sig grid0 :=
  Pipeline.Window.ofSpec (Memref.whole main_arg0) S4000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x768 : Shape := ⟨2, ![100000, 768]⟩
abbrev S3200000 : Shape := ⟨1, ![3200000]⟩
abbrev S32x768 : Shape := ⟨2, ![32, 768]⟩
abbrev S32 : Shape := ⟨1, ![32]⟩
abbrev S8x32 : Shape := ⟨2, ![8, 32]⟩
abbrev S8 : Shape := ⟨1, ![8]⟩
abbrev S768x32 : Shape := ⟨2, ![768, 32]⟩
abbrev S100000x32 : Shape := ⟨2, ![100000, 32]⟩
abbrev S_ : Shape := ⟨0, ![]⟩
abbrev S3200000x1 : Shape := ⟨2, ![3200000, 1]⟩
abbrev S3200000x32 : Shape := ⟨2, ![3200000, 32]⟩
abbrev S100000 : Shape := ⟨1, ![100000]⟩
abbrev S100000x1 : Shape := ⟨2, ![100000, 1]⟩
abbrev S1x32 : Shape := ⟨2, ![1, 32]⟩
abbrev S32x8 : Shape := ⟨2, ![32, 8]⟩
abbrev S100000x8 : Shape := ⟨2, ![100000, 8]⟩
abbrev S3200000x8 : Shape := ⟨2, ![3200000, 8]⟩
abbrev S1x8 : Shape := ⟨2, ![1, 8]⟩

abbrev nBuf : Space → Nat
  | .hbm => 78
  | .vmem => 0
  | .smem => 0
  | _ => 0

abbrev bufTy : (tb : Table) → Fin (tcTables nBuf tb) → BufTy
  | .hbm, ⟨0, _⟩ => ⟨S100000x768, .f32⟩
  | .hbm, ⟨1, _⟩ => ⟨S3200000, .i32⟩
  | .hbm, ⟨2, _⟩ => ⟨S3200000, .i32⟩
  | .hbm, ⟨3, _⟩ => ⟨S32x768, .f32⟩
  | .hbm, ⟨4, _⟩ => ⟨S32x768, .f32⟩
  | .hbm, ⟨5, _⟩ => ⟨S32, .f32⟩
  | .hbm, ⟨6, _⟩ => ⟨S8x32, .f32⟩
  | .hbm, ⟨7, _⟩ => ⟨S8x32, .f32⟩
  | .hbm, ⟨8, _⟩ => ⟨S8, .f32⟩
  | .hbm, ⟨9, _⟩ => ⟨S768x32, .f32⟩
  | .hbm, ⟨10, _⟩ => ⟨S100000x32, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x32, .f32⟩
  | .hbm, ⟨20, _⟩ => ⟨S_, .f32⟩
  | .hbm, ⟨21, _⟩ => ⟨S100000x32, .f32⟩
  | .hbm, ⟨22, _⟩ => ⟨S3200000x1, .i32⟩
  | .hbm, ⟨23, _⟩ => ⟨S100000x32, .f32⟩
  | .hbm, ⟨24, _⟩ => ⟨S_, .f32⟩
  | .hbm, ⟨25, _⟩ => ⟨S3200000, .f32⟩
  | .hbm, ⟨26, _⟩ => ⟨S_, .f32⟩
  | .hbm, ⟨27, _⟩ => ⟨S100000, .f32⟩
  | .hbm, ⟨28, _⟩ => ⟨S3200000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x32, .f32⟩
  | .hbm, ⟨35, _⟩ => ⟨S100000x32, .f32⟩
  | .hbm, ⟨36, _⟩ => ⟨S768x32, .f32⟩
  | .hbm, ⟨37, _⟩ => ⟨S100000x32, .f32⟩
  | .hbm, ⟨38, _⟩ => ⟨S100000x32, .f32⟩
  | .hbm, ⟨39, _⟩ => ⟨S1x32, .f32⟩
  | .hbm, ⟨40, _⟩ => ⟨S100000x32, .f32⟩
  | .hbm, ⟨41, _⟩ => ⟨S100000x32, .f32⟩
  | .hbm, ⟨42, _⟩ => ⟨S_, .f32⟩
  | .hbm, ⟨43, _⟩ => ⟨S100000x32, .f32⟩
  | .hbm, ⟨44, _⟩ => ⟨S100000x32, .f32⟩
  | .hbm, ⟨45, _⟩ => ⟨S32x8, .f32⟩
  | .hbm, ⟨46, _⟩ => ⟨S100000x8, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x8, .f32⟩
  | .hbm, ⟨56, _⟩ => ⟨S_, .f32⟩
  | .hbm, ⟨57, _⟩ => ⟨S100000x8, .f32⟩
  | .hbm, ⟨58, _⟩ => ⟨S3200000x1, .i32⟩
  | .hbm, ⟨59, _⟩ => ⟨S100000x8, .f32⟩
  | .hbm, ⟨60, _⟩ => ⟨S_, .f32⟩
  | .hbm, ⟨61, _⟩ => ⟨S3200000, .f32⟩
  | .hbm, ⟨62, _⟩ => ⟨S_, .f32⟩
  | .hbm, ⟨63, _⟩ => ⟨S100000, .f32⟩
  | .hbm, ⟨64, _⟩ => ⟨S3200000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x8, .f32⟩
  | .hbm, ⟨71, _⟩ => ⟨S100000x8, .f32⟩
  | .hbm, ⟨72, _⟩ => ⟨S32x8, .f32⟩
  | .hbm, ⟨73, _⟩ => ⟨S100000x8, .f32⟩
  | .hbm, ⟨74, _⟩ => ⟨S100000x8, .f32⟩
  | .hbm, ⟨75, _⟩ => ⟨S1x8, .f32⟩
  | .hbm, ⟨76, _⟩ => ⟨S100000x8, .f32⟩
  | .hbm, ⟨77, _⟩ => ⟨S100000x8, .f32⟩
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  transposes_S32x768_S768x32_1_0 : S32x768.Transposes [1, 0] S768x32
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S8x32_S32x8_1_0 : S8x32.Transposes [1, 0] S32x8
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x768_S768x32_S100000x32_1_0_0_1_n_n_wf : DotDims.WF S100000x768 S768x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000_S3200000x1_S3200000_n_0_0_1_wf : ScatterDims.WF S100000 S3200000x1 S3200000 [] [0] [0] 1
  dot_S100000x32_S32x8_S100000x8_1_0_0_1_n_n_wf : DotDims.WF S100000x32 S32x8 S100000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1

variable [Facts₀]

def dot_S100000x768_S768x32_S100000x32_1_0_0_1_n_n : DotDims S100000x768 S768x32 S100000x32 where
  lhsContracting := [1]
  rhsContracting := [0]
  lhsNonContracting := [0]
  rhsNonContracting := [1]
  lhsBatch := []
  rhsBatch := []
  wf := dot_S100000x768_S768x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf

class Facts : Prop extends Facts₀ where

variable [Facts]
-- ==== Proof.KernelRun.lean ====
/-
  The idealized kernel program's run, with every buffer NAMED at the end.

  The program is seven segments: host lines, the first projection's pipelined region, host lines (the first
  layer's aggregation, its rectifier, the second layer's stacked weights), the second projection's region, and
  the last host lines. The generated frame runs these segments and records, at each boundary, what every
  TensorCore buffer holds: `W0` at launch, `W1` after the first lines, `W2` after the first region, … `W7`
  at the return. Its own conclusion keeps only the argument buffers. Here the same run is stated with the
  whole last boundary kept: every unscoped buffer ends at `W7`, in particular the result buffer.
-/
import proofs.«112956_j5523327943254_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and at the end every unscoped
    TensorCore buffer of every core holds what the last boundary of the segment fold says (`W7`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The run with the result buffer and the nine argument buffers read off the last boundary: the result
    holds `W7` at its buffer, each argument what it held at launch. -/
theorem run_result : θ_run defs (onTc (τ := τ) (main (F := F))) ⟨m, fun _ => 0, ρ⟩ (fun r => ∀ c : Dev nD,
      r.2.mem ((c.tc : Thread nD τ).loc main_v53) = W7 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v53 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)
    (run_all m ρ)

end Cert.KernelIdeal.Whole

end
-- ==== Proof.Region0.lean ====
/-
  The first projection: features against the stacked first-layer weights.

  The pipelined region walks 25 grid points. At point t it fetches rows 4000·t … 4000·t + 3999 of the left
  operand (a 4000 × 768 block), keeps the whole 768 × 64 right operand resident, multiplies them on the matrix unit
  into a zero accumulator, and writes the 4000 × 64 result back as rows 4000·t … of the output. At the ideal
  instance the narrowing to bf16 is the identity and the matrix product is the plain sum over the contracted
  index, so entry (r, q) of the block is Σₖ left(r, k) · right(k, q). The 25 row blocks tile the output, hence the
  output array ends as the whole product: entry (i, q) is Σₖ X(i, k) · W(k, q), with X and W the two operand
  arrays as the region finds them.
-/
import proofs.«112956_j5523327943254_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Proj1

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The whole product -/

/-- Entry (i₀, k) of the left array. -/
abbrev lrow (i : S100000x64.Idx) (k : Fin 768) : S100000x768.Idx := fun a => match a with
  | ⟨0, _⟩ => ⟨(i 0).val, (i 0).isLt⟩
  | ⟨1, _⟩ => ⟨k.val, k.isLt⟩
/-- Entry (k, i₁) of the right array. -/
abbrev rcol (i : S100000x64.Idx) (k : Fin 768) : S768x64.Idx := fun a => match a with
  | ⟨0, _⟩ => ⟨k.val, k.isLt⟩
  | ⟨1, _⟩ => ⟨(i 1).val, (i 1).isLt⟩

/-- The matrix product of a left array and a right array, entry by entry: the sum over the contracted index. -/
def prod (X : S100000x768.Idx → EReal) (W : S768x64.Idx → EReal) : S100000x64.Idx → EReal :=
  fun i => ∑ k : Fin 768, X (lrow i k) * W (rcol i k)

/-! ## One block's product, at an entry -/

abbrev blkL (j : S4000x64.Idx) (k : Fin 768) : S4000x768.Idx := fun a => match a with
  | ⟨0, _⟩ => ⟨(j 0).val, (j 0).isLt⟩
  | ⟨1, _⟩ => ⟨k.val, k.isLt⟩
abbrev blkR (j : S4000x64.Idx) (k : Fin 768) : S768x64.Idx := fun a => match a with
  | ⟨0, _⟩ => ⟨k.val, k.isLt⟩
  | ⟨1, _⟩ => ⟨(j 1).val, (j 1).isLt⟩

theorem lhs0 (j : S4000x64.Idx) (q : dot_S4000x768_S768x64_S4000x64_1_0_0_1_n_n.contr.Idx) : (dot_S4000x768_S768x64_S4000x64_1_0_0_1_n_n.lhsIdx j q 0).val = (j 0).val := by
  unfold DotDims.lhsIdx
  rw [dif_neg (show ¬(0 : Fin S4000x768.rank) ∈ dot_S4000x768_S768x64_S4000x64_1_0_0_1_n_n.lhsBatch by decide), dif_pos (show (0 : Fin S4000x768.rank) ∈ dot_S4000x768_S768x64_S4000x64_1_0_0_1_n_n.lhsNonContracting by decide)]
  rfl
theorem lhs1 (j : S4000x64.Idx) (q : dot_S4000x768_S768x64_S4000x64_1_0_0_1_n_n.contr.Idx) : (dot_S4000x768_S768x64_S4000x64_1_0_0_1_n_n.lhsIdx j q 1).val = (q ⟨0, by decide⟩).val :=
  dot_S4000x768_S768x64_S4000x64_1_0_0_1_n_n.lhsIdx_val_of_single rfl j q
theorem rhs0 (j : S4000x64.Idx) (q : dot_S4000x768_S768x64_S4000x64_1_0_0_1_n_n.contr.Idx) : (dot_S4000x768_S768x64_S4000x64_1_0_0_1_n_n.rhsIdx j q 0).val = (q ⟨0, by decide⟩).val :=
  dot_S4000x768_S768x64_S4000x64_1_0_0_1_n_n.rhsIdx_val_of_single rfl j q
theorem rhs1 (j : S4000x64.Idx) (q : dot_S4000x768_S768x64_S4000x64_1_0_0_1_n_n.contr.Idx) : (dot_S4000x768_S768x64_S4000x64_1_0_0_1_n_n.rhsIdx j q 1).val = (j 1).val := by
  unfold DotDims.rhsIdx
  rw [dif_neg (show ¬(1 : Fin S768x64.rank) ∈ dot_S4000x768_S768x64_S4000x64_1_0_0_1_n_n.rhsBatch by decide), dif_pos (show (1 : Fin S768x64.rank) ∈ dot_S4000x768_S768x64_S4000x64_1_0_0_1_n_n.rhsNonContracting by decide)]
  rfl

/-- What the body stores at entry j of its output block: row j₀ of the left block against column j₁ of the right
    operand. The accumulator is the zero splat, and narrowing to bf16 does nothing to an extended real. -/
theorem pay_apply (x0 : Vec Ideal S4000x768 .f32) (x1 : Vec Ideal S768x64 .bf16) (j : S4000x64.Idx) :
    k0_pay1 (F := Ideal) x0 x1 j = ∑ k : Fin 768, x0 (blkL j k) * x1 (blkR j k) := by
  unfold k0_pay1
  simp only [matmul, shapeCast_self]
  rw [Ideal.matmul_constant_zero_apply, ← Equiv.sum_comp (contrEquiv1 dot_S4000x768_S768x64_S4000x64_1_0_0_1_n_n 768 rfl rfl).symm]
  refine Finset.sum_congr rfl fun k _ => ?_
  have hk := contrEquiv1_symm_val dot_S4000x768_S768x64_S4000x64_1_0_0_1_n_n 768 rfl rfl k
  have el : dot_S4000x768_S768x64_S4000x64_1_0_0_1_n_n.lhsIdx j ((contrEquiv1 dot_S4000x768_S768x64_S4000x64_1_0_0_1_n_n 768 rfl rfl).symm k) = blkL j k := funext fun a => Fin.ext (by
    match a with
    | ⟨0, _⟩ => exact lhs0 _ _
    | ⟨1, _⟩ => exact (lhs1 _ _).trans hk)
  have er : dot_S4000x768_S768x64_S4000x64_1_0_0_1_n_n.rhsIdx j ((contrEquiv1 dot_S4000x768_S768x64_S4000x64_1_0_0_1_n_n 768 rfl rfl).symm k) = blkR j k := funext fun a => Fin.ext (by
    match a with
    | ⟨0, _⟩ => exact (rhs0 _ _).trans hk
    | ⟨1, _⟩ => exact rhs1 _ _)
  rw [el, er]
  rfl

/-- A block's sum is the whole product's entry, once each factor of the block is the matching entry of its array. -/
theorem prod_block (X : S100000x768.Idx → EReal) (W : S768x64.Idx → EReal) (x0 : S4000x768.Idx → EReal) (x1 : S768x64.Idx → EReal)
    (j : S4000x64.Idx) (i : S100000x64.Idx) (h0 : ∀ k, x0 (blkL j k) = X (lrow i k)) (h1 : ∀ k, x1 (blkR j k) = W (rcol i k)) :
    ∑ k : Fin 768, x0 (blkL j k) * x1 (blkR j k) = prod X W i :=
  Finset.sum_congr rfl fun k _ => by rw [h0 k, h1 k]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t: the left operand's and the output's at row block t, the right
    operand's always at the origin. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two operand arrays as the region finds them. -/
theorem flushed_eq (c : Dev nD) (t : Fin cfg0.N) :
    (dat0 V c).flushed 2 t = ((cfg0.win 2).blk t).view.read (Elt Ideal) (prod (V c main_arg0) (V c main_v2)) := by
  show (cfg0.win 2).cut (grid0.coords t) ((dat0 V c).after 2 t) = _
  rw [after0_2]
  unfold out0_2
  rw [View.canon_unit_zero zero_offsets]
  simp only [View.ld_unit_zero (S := S4000x768) zero_offsets, View.ld_unit_zero (S := S768x64) zero_offsets]
  obtain ⟨e0, e1, e2, e3, e4, e5⟩ := block_positions t
  funext j
  refine (pay_apply (iblk0 V c 0 t) (iblk0 V c 1 t) j).trans
    (prod_block (V c main_arg0) (V c main_v2) (iblk0 V c 0 t) (iblk0 V c 1 t) j (((cfg0.win 2).blk t).view.emb j) (fun k => ?_) (fun k => ?_))
  · show V c main_arg0 (((cfg0.win 0).blk t).view.emb (blkL j k)) = _
    refine congrArg (V c main_arg0) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 768 + 1 * k.val = k.val; omega
  · show V c main_v2 (((cfg0.win 1).blk t).view.emb (blkR j k)) = _
    refine congrArg (V c main_v2) (funext fun a => Fin.ext ?_)
    match a with
    | ⟨0, _⟩ => show win0_1.index t (0 : Fin 2) * 768 + 1 * k.val = k.val; omega
    | ⟨1, _⟩ => show win0_1.index t (1 : Fin 2) * 64 + 1 * (j 1).val = win0_2.index t (1 : Fin 2) * 64 + 1 * (j 1).val; omega

/-- An entry of the output array lies in point t's block iff each coordinate is in the block's range on its axis. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v3).slice (win0_2.rect t)).set ↔ _
  rw [View.set_slice_whole, Rect.mem_set_unit]
  exact Iff.rfl

/-- Row i₀ is written back by point i₀ / 4000: the row blocks tile the output. -/
theorem covered (i : S100000x64.Idx) : ∃ t : Fin cfg0.N, (cfg0.win 2).flush t = true ∧ i ∈ ((cfg0.win 2).blk t).view.set := by
  have hN : cfg0.N = 25 := N_0
  have h0 : (i 0).val < 100000 := (i 0).isLt
  have h1 : (i 1).val < 64 := (i 1).isLt
  have ht : (i 0).val / 4000 < cfg0.N := by rw [hN]; omega
  obtain ⟨e0, e1, e2, e3, e4, e5⟩ := block_positions ⟨(i 0).val / 4000, ht⟩
  have e4' : win0_2.index ⟨(i 0).val / 4000, ht⟩ (0 : Fin 2) = (i 0).val / 4000 := e4
  refine ⟨⟨(i 0).val / 4000, ht⟩, flush0_2 _, ?_⟩
  rw [mem_blk]
  intro a
  match a with
  | ⟨0, _⟩ => show win0_2.index ⟨(i 0).val / 4000, ht⟩ (0 : Fin 2) * 4000 ≤ (i 0).val ∧ (i 0).val < win0_2.index ⟨(i 0).val / 4000, ht⟩ (0 : Fin 2) * 4000 + 4000; omega
  | ⟨1, _⟩ => show win0_2.index ⟨(i 0).val / 4000, ht⟩ (1 : Fin 2) * 64 ≤ (i 1).val ∧ (i 1).val < win0_2.index ⟨(i 0).val / 4000, ht⟩ (1 : Fin 2) * 64 + 64; omega

/-- The output array after the region: the whole product of the two operand arrays as the region finds them. -/
theorem final (c : Dev nD) : (dat0 V c).arrAt 2 cfg0.N = prod (V c main_arg0) (V c main_v2) :=
  (dat0 V c).arrAt_eq_of_cover 2 (prod (V c main_arg0) (V c main_v2)) (fun t _ => flushed_eq V c t) covered

end Cert.KernelIdeal.Proj1

end
-- ==== Proof.Region1.lean ====
/-
  The second projection: the hidden layer against the stacked second-layer weights.

  The pipelined region walks 10 grid points. At point t it fetches rows 10000·t … 10000·t + 9999 of the left
  operand (a 10000 × 32 block), keeps the whole 32 × 16 right operand resident, multiplies them on the matrix unit
  into a zero accumulator, and writes the 10000 × 16 result back as rows 10000·t … of the output. At the ideal
  instance the narrowing to bf16 is the identity and the matrix product is the plain sum over the contracted
  index, so entry (r, q) of the block is Σₖ left(r, k) · right(k, q). The 10 row blocks tile the output, hence the
  output array ends as the whole product: entry (i, q) is Σₖ X(i, k) · W(k, q), with X and W the two operand
  arrays as the region finds them.
-/
import proofs.«112956_j5523327943254_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Proj2

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The whole product -/

/-- Entry (i₀, k) of the left array. -/
abbrev lrow (i : S100000x16.Idx) (k : Fin 32) : S100000x32.Idx := fun a => match a with
  | ⟨0, _⟩ => ⟨(i 0).val, (i 0).isLt⟩
  | ⟨1, _⟩ => ⟨k.val, k.isLt⟩
/-- Entry (k, i₁) of the right array. -/
abbrev rcol (i : S100000x16.Idx) (k : Fin 32) : S32x16.Idx := fun a => match a with
  | ⟨0, _⟩ => ⟨k.val, k.isLt⟩
  | ⟨1, _⟩ => ⟨(i 1).val, (i 1).isLt⟩

/-- The matrix product of a left array and a right array, entry by entry: the sum over the contracted index. -/
def prod (X : S100000x32.Idx → EReal) (W : S32x16.Idx → EReal) : S100000x16.Idx → EReal :=
  fun i => ∑ k : Fin 32, X (lrow i k) * W (rcol i k)

/-! ## One block's product, at an entry -/

abbrev blkL (j : S10000x16.Idx) (k : Fin 32) : S10000x32.Idx := fun a => match a with
  | ⟨0, _⟩ => ⟨(j 0).val, (j 0).isLt⟩
  | ⟨1, _⟩ => ⟨k.val, k.isLt⟩
abbrev blkR (j : S10000x16.Idx) (k : Fin 32) : S32x16.Idx := fun a => match a with
  | ⟨0, _⟩ => ⟨k.val, k.isLt⟩
  | ⟨1, _⟩ => ⟨(j 1).val, (j 1).isLt⟩

theorem lhs0 (j : S10000x16.Idx) (q : dot_S10000x32_S32x16_S10000x16_1_0_0_1_n_n.contr.Idx) : (dot_S10000x32_S32x16_S10000x16_1_0_0_1_n_n.lhsIdx j q 0).val = (j 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
theorem lhs1 (j : S10000x16.Idx) (q : dot_S10000x32_S32x16_S10000x16_1_0_0_1_n_n.contr.Idx) : (dot_S10000x32_S32x16_S10000x16_1_0_0_1_n_n.lhsIdx j q 1).val = (q ⟨0, by decide⟩).val :=
  dot_S10000x32_S32x16_S10000x16_1_0_0_1_n_n.lhsIdx_val_of_single rfl j q
theorem rhs0 (j : S10000x16.Idx) (q : dot_S10000x32_S32x16_S10000x16_1_0_0_1_n_n.contr.Idx) : (dot_S10000x32_S32x16_S10000x16_1_0_0_1_n_n.rhsIdx j q 0).val = (q ⟨0, by decide⟩).val :=
  dot_S10000x32_S32x16_S10000x16_1_0_0_1_n_n.rhsIdx_val_of_single rfl j q
theorem rhs1 (j : S10000x16.Idx) (q : dot_S10000x32_S32x16_S10000x16_1_0_0_1_n_n.contr.Idx) : (dot_S10000x32_S32x16_S10000x16_1_0_0_1_n_n.rhsIdx j q 1).val = (j 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- What the body stores at entry j of its output block: row j₀ of the left block against column j₁ of the right
    operand. The accumulator is the zero splat, and narrowing to bf16 does nothing to an extended real. -/
theorem pay_apply (x0 : Vec Ideal S10000x32 .f32) (x1 : Vec Ideal S32x16 .bf16) (j : S10000x16.Idx) :
    k1_pay1 (F := Ideal) x0 x1 j = ∑ k : Fin 32, x0 (blkL j k) * x1 (blkR j k) := by
  unfold k1_pay1
  simp only [matmul, shapeCast_self]
  rw [Ideal.matmul_constant_zero_apply, ← Equiv.sum_comp (contrEquiv1 dot_S10000x32_S32x16_S10000x16_1_0_0_1_n_n 32 rfl rfl).symm]
  refine Finset.sum_congr rfl fun k _ => ?_
  have hk := contrEquiv1_symm_val dot_S10000x32_S32x16_S10000x16_1_0_0_1_n_n 32 rfl rfl k
  have el : dot_S10000x32_S32x16_S10000x16_1_0_0_1_n_n.lhsIdx j ((contrEquiv1 dot_S10000x32_S32x16_S10000x16_1_0_0_1_n_n 32 rfl rfl).symm k) = blkL j k := funext fun a => Fin.ext (by
    match a with
    | ⟨0, _⟩ => exact lhs0 _ _
    | ⟨1, _⟩ => exact (lhs1 _ _).trans hk)
  have er : dot_S10000x32_S32x16_S10000x16_1_0_0_1_n_n.rhsIdx j ((contrEquiv1 dot_S10000x32_S32x16_S10000x16_1_0_0_1_n_n 32 rfl rfl).symm k) = blkR j k := funext fun a => Fin.ext (by
    match a with
    | ⟨0, _⟩ => exact (rhs0 _ _).trans hk
    | ⟨1, _⟩ => exact rhs1 _ _)
  rw [el, er]
  rfl

/-- A block's sum is the whole product's entry, once each factor of the block is the matching entry of its array. -/
theorem prod_block (X : S100000x32.Idx → EReal) (W : S32x16.Idx → EReal) (x0 : S10000x32.Idx → EReal) (x1 : S32x16.Idx → EReal)
    (j : S10000x16.Idx) (i : S100000x16.Idx) (h0 : ∀ k, x0 (blkL j k) = X (lrow i k)) (h1 : ∀ k, x1 (blkR j k) = W (rcol i k)) :
    ∑ k : Fin 32, x0 (blkL j k) * x1 (blkR j k) = prod X W i :=
  Finset.sum_congr rfl fun k _ => by rw [h0 k, h1 k]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point t: the left operand's and the output's at row block t, the right
    operand's always at the origin. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the two operand arrays as the region finds them. -/
theorem flushed_eq (c : Dev nD) (t : Fin cfg1.N) :
    (dat1 V c).flushed 2 t = ((cfg1.win 2).blk t).view.read (Elt Ideal) (prod (V c main_v31) (V c main_v34)) := by
  show (cfg1.win 2).cut (grid1.coords t) ((dat1 V c).after 2 t) = _
  rw [after1_2]
  unfold out1_2
  rw [View.canon_unit_zero zero_offsets]
  simp only [View.ld_unit_zero (S := S10000x32) zero_offsets, View.ld_unit_zero (S := S32x16) zero_offsets]
  obtain ⟨e0, e1, e2, e3, e4, e5⟩ := block_positions t
  funext j
  refine (pay_apply (iblk1 V c 0 t) (iblk1 V c 1 t) j).trans
    (prod_block (V c main_v31) (V c main_v34) (iblk1 V c 0 t) (iblk1 V c 1 t) j (((cfg1.win 2).blk t).view.emb j) (fun k => ?_) (fun k => ?_))
  · show V c main_v31 (((cfg1.win 0).blk t).view.emb (blkL j k)) = _
    refine congrArg (V c main_v31) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 32 + 1 * k.val = k.val; omega
  · show V c main_v34 (((cfg1.win 1).blk t).view.emb (blkR j k)) = _
    refine congrArg (V c main_v34) (funext fun a => Fin.ext ?_)
    match a with
    | ⟨0, _⟩ => show win1_1.index t (0 : Fin 2) * 32 + 1 * k.val = k.val; omega
    | ⟨1, _⟩ => show win1_1.index t (1 : Fin 2) * 16 + 1 * (j 1).val = win1_2.index t (1 : Fin 2) * 16 + 1 * (j 1).val; omega

/-- An entry of the output array lies in point t's block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v35).slice (win1_2.rect t)).set ↔ _
  rw [View.set_slice_whole, Rect.mem_set_unit]
  exact Iff.rfl

/-- Row i₀ is written back by point i₀ / 10000: the row blocks tile the output. -/
theorem covered (i : S100000x16.Idx) : ∃ t : Fin cfg1.N, (cfg1.win 2).flush t = true ∧ i ∈ ((cfg1.win 2).blk t).view.set := by
  have hN : cfg1.N = 10 := N_1
  have h0 : (i 0).val < 100000 := (i 0).isLt
  have h1 : (i 1).val < 16 := (i 1).isLt
  have ht : (i 0).val / 10000 < cfg1.N := by rw [hN]; omega
  obtain ⟨e0, e1, e2, e3, e4, e5⟩ := block_positions ⟨(i 0).val / 10000, ht⟩
  have e4' : win1_2.index ⟨(i 0).val / 10000, ht⟩ (0 : Fin 2) = (i 0).val / 10000 := e4
  refine ⟨⟨(i 0).val / 10000, ht⟩, flush1_2 _, ?_⟩
  rw [mem_blk]
  intro a
  match a with
  | ⟨0, _⟩ => show win1_2.index ⟨(i 0).val / 10000, ht⟩ (0 : Fin 2) * 10000 ≤ (i 0).val ∧ (i 0).val < win1_2.index ⟨(i 0).val / 10000, ht⟩ (0 : Fin 2) * 10000 + 10000; omega
  | ⟨1, _⟩ => show win1_2.index ⟨(i 0).val / 10000, ht⟩ (1 : Fin 2) * 16 ≤ (i 1).val ∧ (i 1).val < win1_2.index ⟨(i 0).val / 10000, ht⟩ (1 : Fin 2) * 16 + 16; omega

/-- The output array after the region: the whole product of the two operand arrays as the region finds them. -/
theorem final (c : Dev nD) : (dat1 V c).arrAt 2 cfg1.N = prod (V c main_v31) (V c main_v34) :=
  (dat1 V c).arrAt_eq_of_cover 2 (prod (V c main_v31) (V c main_v34)) (fun t _ => flushed_eq V c t) covered

end Cert.KernelIdeal.Proj2

end
-- ==== Proof.Fold.lean ====
/-
  What the idealized kernel program computes, as one function of its nine arguments.

  The program is: stack the two first-layer weight matrices and transpose them; multiply the features by the stack
  (first region); split the product into its "self" and "neighbour" halves; gather the neighbour half along the
  edges' sources, sum it into the edges' destinations, and scale each row by 1 / max(in-degree, 1); add the self
  half and the bias; rectify; then the same once more with the second-layer weights (second region and the last
  host lines). Each of these is a stage below, written with the program's own operations. The lemmas then read
  the segment fold one boundary at a time — a host stretch by evaluating its lines at the wanted buffer, a region
  by its output array's closed form — until the result buffer is the stages' composition at the launch contents.
-/
import proofs.«112956_j5523327943254_2_alg».proof.Proof.Region0
import proofs.«112956_j5523327943254_2_alg».proof.Proof.Region1
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

/-! ## The stages -/

section Stages
variable {F : FTy → Type} [FloatOps F]

/-- The first layer's two weight matrices stacked (self on top), transposed, narrowed to bf16: a 768 × 64 matrix. -/
def wcat1 (ws wn : (⟨S32x768, .f32⟩ : BufTy).Contents (Elt F)) : (⟨S768x64, .bf16⟩ : BufTy).Contents (Elt F) :=
  truncf .bf16 (transpose S768x64 [1, 0] (concatenate S64x768 0 [⟨S32x768, ws⟩, ⟨S32x768, wn⟩] concatenates_S32x768_S32x768_S64x768_d0) transposes_S64x768_S768x64_1_0) bitsLt_bf16_f32

/-- The second layer's two weight matrices stacked, transposed, narrowed: a 32 × 16 matrix. -/
def wcat2 (ws wn : (⟨S8x32, .f32⟩ : BufTy).Contents (Elt F)) : (⟨S32x16, .bf16⟩ : BufTy).Contents (Elt F) :=
  truncf .bf16 (transpose S32x16 [1, 0] (concatenate S16x32 0 [⟨S8x32, ws⟩, ⟨S8x32, wn⟩] concatenates_S8x32_S8x32_S16x32_d0) transposes_S16x32_S32x16_1_0) bitsLt_bf16_f32

/-- Every edge's source node as a column of indices, a negative index moved up by the node count once. -/
def srcIdx (src : (⟨S3200000, .i32⟩ : BufTy).Contents (Elt F)) : (⟨S3200000x1, .i32⟩ : BufTy).Contents (Elt F) :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- Every edge's destination node as a column of indices. -/
def dstIdx (dst : (⟨S3200000, .i32⟩ : BufTy).Contents (Elt F)) : (⟨S3200000x1, .i32⟩ : BufTy).Contents (Elt F) :=
  broadcastInDim S3200000x1 ![0] bcast_S3200000_S3200000x1_0 dst

/-- Every node's in-degree: a one summed into the destination of each edge. -/
def deg (dst : (⟨S3200000, .i32⟩ : BufTy).Contents (Elt F)) : (⟨S100000, .f32⟩ : BufTy).Contents (Elt F) :=
  Host.scatterAdd scatter_S100000_S3200000x1_S3200000_n_0_0_1 (broadcastInDim S100000 ![] bcast_S_S100000 (constant S_ .f32 0x00000000#32))
    (dstIdx dst) (broadcastInDim S3200000 ![] bcast_S_S3200000 (constant S_ .f32 0x3F800000#32))

/-- 1 / max(in-degree, 1), as a column. -/
def degInv (dst : (⟨S3200000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32))
      (maximumf (deg dst) (broadcastInDim S100000 ![] bcast_S_S100000 (constant S_ .f32 0x3F800000#32))))

/-- Rows of a 32-column array gathered along the edges' sources and summed into the edges' destinations. -/
def agg32 (h : (⟨S100000x32, .f32⟩ : BufTy).Contents (Elt F)) (src dst : (⟨S3200000, .i32⟩ : BufTy).Contents (Elt F)) : (⟨S100000x32, .f32⟩ : BufTy).Contents (Elt F) :=
  Host.scatterAdd scatter_S100000x32_S3200000x1_S3200000x32_1_0_0_1 (broadcastInDim S100000x32 ![] bcast_S_S100000x32 (constant S_ .f32 0x00000000#32))
    (dstIdx dst) (Host.gather gather_S100000x32_S3200000x1_S3200000x32_1_0_n_n_0_1_132 h (srcIdx src))

/-- The same for an 8-column array. -/
def agg8 (h : (⟨S100000x8, .f32⟩ : BufTy).Contents (Elt F)) (src dst : (⟨S3200000, .i32⟩ : BufTy).Contents (Elt F)) : (⟨S100000x8, .f32⟩ : BufTy).Contents (Elt F) :=
  Host.scatterAdd scatter_S100000x8_S3200000x1_S3200000x8_1_0_0_1 (broadcastInDim S100000x8 ![] bcast_S_S100000x8 (constant S_ .f32 0x00000000#32))
    (dstIdx dst) (Host.gather gather_S100000x8_S3200000x1_S3200000x8_1_0_n_n_0_1_18 h (srcIdx src))

/-- The first layer before its rectifier, from the 64-column projection: its left half, plus the aggregated right
    half scaled by the reciprocal column, plus the bias. -/
def hidden (p : (⟨S100000x64, .f32⟩ : BufTy).Contents (Elt F)) (src dst : (⟨S3200000, .i32⟩ : BufTy).Contents (Elt F)) (b : (⟨S32, .f32⟩ : BufTy).Contents (Elt F)) : (⟨S100000x32, .f32⟩ : BufTy).Contents (Elt F) :=
  addf (addf (extractStridedSlice S100000x32 ![0, 0] p slices_S100000x64_S100000x32_0_0)
      (mulf (agg32 (extractStridedSlice S100000x32 ![0, 32] p slices_S100000x64_S100000x32_0_32) src dst)
        (broadcastInDim S100000x32 ![0, 1] bcast_S100000x1_S100000x32_0_1 (degInv dst))))
    (broadcastInDim S100000x32 ![0, 1] bcast_S1x32_S100000x32_0_1 (broadcastInDim S1x32 ![1] bcast_S32_S1x32_1 b))

/-- The rectifier: the maximum with zero. -/
def relu (x : (⟨S100000x32, .f32⟩ : BufTy).Contents (Elt F)) : (⟨S100000x32, .f32⟩ : BufTy).Contents (Elt F) :=
  maximumf x (broadcastInDim S100000x32 ![] bcast_S_S100000x32 (constant S_ .f32 0x00000000#32))

/-- The second layer, from the 16-column projection and the reciprocal column. -/
def logits (p : (⟨S100000x16, .f32⟩ : BufTy).Contents (Elt F)) (dinv : (⟨S100000x1, .f32⟩ : BufTy).Contents (Elt F)) (src dst : (⟨S3200000, .i32⟩ : BufTy).Contents (Elt F)) (b : (⟨S8, .f32⟩ : BufTy).Contents (Elt F)) : (⟨S100000x8, .f32⟩ : BufTy).Contents (Elt F) :=
  addf (addf (extractStridedSlice S100000x8 ![0, 0] p slices_S100000x16_S100000x8_0_0)
      (mulf (agg8 (extractStridedSlice S100000x8 ![0, 8] p slices_S100000x16_S100000x8_0_8) src dst)
        (broadcastInDim S100000x8 ![0, 1] bcast_S100000x1_S100000x8_0_1 dinv)))
    (broadcastInDim S100000x8 ![0, 1] bcast_S1x8_S100000x8_0_1 (broadcastInDim S1x8 ![1] bcast_S8_S1x8_1 b))

end Stages

/-- The whole program at the ideal instance: the stages composed, the two regions as whole matrix products. -/
def out (x : (⟨S100000x768, .f32⟩ : BufTy).Contents (Elt Ideal)) (src dst : (⟨S3200000, .i32⟩ : BufTy).Contents (Elt Ideal))
    (ws1 wn1 : (⟨S32x768, .f32⟩ : BufTy).Contents (Elt Ideal)) (b1 : (⟨S32, .f32⟩ : BufTy).Contents (Elt Ideal))
    (ws2 wn2 : (⟨S8x32, .f32⟩ : BufTy).Contents (Elt Ideal)) (b2 : (⟨S8, .f32⟩ : BufTy).Contents (Elt Ideal)) :
    (⟨S100000x8, .f32⟩ : BufTy).Contents (Elt Ideal) :=
  logits (F := Ideal) (Proj2.prod (relu (F := Ideal) (hidden (F := Ideal) (Proj1.prod x (wcat1 (F := Ideal) ws1 wn1)) src dst b1)) (wcat2 (F := Ideal) ws2 wn2))
    (degInv (F := Ideal) dst) src dst b2

/-! ## The fold, boundary by boundary -/

variable (m : (ℓ : Loc nD τ sig) → Buf (Elt Ideal) ℓ) (ρ : Dev nD → PrngReg)

/-- After the first host lines the features are as launched … -/
theorem W1_arg0 (c : Dev nD) : W1 m ρ c (Proc.devRef .tc main_arg0) = m ((c : Thread nD τ).loc main_arg0) := by
  show StableHlo.after hostOps0 (W0 m ρ c) (Proc.devRef .tc main_arg0) = _
  after_results_simp
/-- … and the stacked weights' buffer holds the stack of the two launched matrices. -/
theorem W1_v2 (c : Dev nD) : W1 m ρ c (Proc.devRef .tc main_v2)
    = wcat1 (F := Ideal) (m ((c : Thread nD τ).loc main_arg3)) (m ((c : Thread nD τ).loc main_arg4)) := by
  show StableHlo.after hostOps0 (W0 m ρ c) (Proc.devRef .tc main_v2) = _
  after_results_simp
  rfl

/-- The first region leaves, in its output buffer, the features times the stacked first-layer weights. -/
theorem W2_v3 (c : Dev nD) : W2 m ρ c (Proc.devRef .tc main_v3)
    = Proj1.prod (m ((c : Thread nD τ).loc main_arg0)) (wcat1 (F := Ideal) (m ((c : Thread nD τ).loc main_arg3)) (m ((c : Thread nD τ).loc main_arg4))) := by
  refine (W2_arr m ρ c 2).trans ((Proj1.final (V1 m ρ) c).trans ?_)
  show Proj1.prod (W1 m ρ c (Proc.devRef .tc main_arg0)) (W1 m ρ c (Proc.devRef .tc main_v2)) = _
  rw [W1_arg0, W1_v2]

/-- A buffer that is neither an array of the first region nor written by the first host lines is, after the first
    region, as launched: the six arguments the later lines read. -/
theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results_simp
theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results_simp
theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results_simp
theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp
theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp
theorem W2_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results_simp

/-- The middle host lines (the first layer, its rectifier, the second stack), read at the second region's left
    operand: the rectified first layer of what the first region left. -/
theorem W5_v31 (c : Dev nD) : W5 m ρ c (Proc.devRef .tc main_v31)
    = relu (F := Ideal) (hidden (F := Ideal) (W2 m ρ c (Proc.devRef .tc main_v3)) (W2 m ρ c (Proc.devRef .tc main_arg1))
        (W2 m ρ c (Proc.devRef .tc main_arg2)) (W2 m ρ c (Proc.devRef .tc main_arg5))) := by
  show StableHlo.after hostOps1_2 (StableHlo.after hostOps1_1 (StableHlo.after hostOps1 (W2 m ρ c))) (Proc.devRef .tc main_v31) = _
  after_results_simp
  rfl
/-- … at its right operand: the second stack. -/
theorem W5_v34 (c : Dev nD) : W5 m ρ c (Proc.devRef .tc main_v34)
    = wcat2 (F := Ideal) (W2 m ρ c (Proc.devRef .tc main_arg6)) (W2 m ρ c (Proc.devRef .tc main_arg7)) := by
  show StableHlo.after hostOps1_2 (StableHlo.after hostOps1_1 (StableHlo.after hostOps1 (W2 m ρ c))) (Proc.devRef .tc main_v34) = _
  after_results_simp
  rfl
/-- … at the reciprocal column, which the last lines use again. -/
theorem W5_v14 (c : Dev nD) : W5 m ρ c (Proc.devRef .tc main_v14) = degInv (F := Ideal) (W2 m ρ c (Proc.devRef .tc main_arg2)) := by
  show StableHlo.after hostOps1_2 (StableHlo.after hostOps1_1 (StableHlo.after hostOps1 (W2 m ρ c))) (Proc.devRef .tc main_v14) = _
  after_results_simp
  rfl
/-- … and at the three arguments the last lines read, which they do not write. -/
theorem W5_arg1 (c : Dev nD) : W5 m ρ c (Proc.devRef .tc main_arg1) = W2 m ρ c (Proc.devRef .tc main_arg1) := by
  show StableHlo.after hostOps1_2 (StableHlo.after hostOps1_1 (StableHlo.after hostOps1 (W2 m ρ c))) (Proc.devRef .tc main_arg1) = _
  after_results_simp
theorem W5_arg2 (c : Dev nD) : W5 m ρ c (Proc.devRef .tc main_arg2) = W2 m ρ c (Proc.devRef .tc main_arg2) := by
  show StableHlo.after hostOps1_2 (StableHlo.after hostOps1_1 (StableHlo.after hostOps1 (W2 m ρ c))) (Proc.devRef .tc main_arg2) = _
  after_results_simp
theorem W5_arg8 (c : Dev nD) : W5 m ρ c (Proc.devRef .tc main_arg8) = W2 m ρ c (Proc.devRef .tc main_arg8) := by
  show StableHlo.after hostOps1_2 (StableHlo.after hostOps1_1 (StableHlo.after hostOps1 (W2 m ρ c))) (Proc.devRef .tc main_arg8) = _
  after_results_simp

/-- The second region leaves, in its output buffer, its left operand times its right operand as it finds them. -/
theorem W6_v35 (c : Dev nD) : W6 m ρ c (Proc.devRef .tc main_v35)
    = Proj2.prod (W5 m ρ c (Proc.devRef .tc main_v31)) (W5 m ρ c (Proc.devRef .tc main_v34)) :=
  (W6_arr m ρ c 2).trans (Proj2.final (V5 m ρ) c)

/-- The last host lines, read at the result buffer: the second layer of what the second region left. -/
theorem W7_v53 (c : Dev nD) : W7 m ρ c (Proc.devRef .tc main_v53)
    = logits (F := Ideal) (W6 m ρ c (Proc.devRef .tc main_v35)) (W6 m ρ c (Proc.devRef .tc main_v14))
        (W6 m ρ c (Proc.devRef .tc main_arg1)) (W6 m ρ c (Proc.devRef .tc main_arg2)) (W6 m ρ c (Proc.devRef .tc main_arg8)) := by
  show StableHlo.after hostOps2 (W6 m ρ c) (Proc.devRef .tc main_v53) = _
  after_results_simp
  rfl

/-- The result buffer at the return is the stages' composition at the launch contents. -/
theorem result (c : Dev nD) : W7 m ρ c (Proc.devRef .tc main_v53)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  rw [W7_v53, W6_v35, W6_of_ne m ρ c main_v14 (by decide), W6_of_ne m ρ c main_arg1 (by decide), W6_of_ne m ρ c main_arg2 (by decide),
    W6_of_ne m ρ c main_arg8 (by decide), W5_v31, W5_v34, W5_v14, W5_arg1, W5_arg2, W5_arg8, W2_v3, W2_arg1, W2_arg2, W2_arg5, W2_arg6, W2_arg7, W2_arg8]
  rfl

end Cert.KernelIdeal.Fold

end
-- ==== Proof.RefStages.lean ====
/-
  What the idealized reference program computes, as one function of its nine arguments.

  Per layer the reference multiplies its input by the transposed "neighbour" weights, gathers the product along
  the edges' sources, sums it into the edges' destinations, divides each row by max(in-degree, 1), and adds the
  input times the transposed "self" weights and the bias; the first layer is rectified. The stages below are the
  reference's own operations, and the generated run's result term is their composition at the launch contents.
-/
import proofs.«112956_j5523327943254_2_alg».proof.Proof.Gen.ReferenceIdeal.Run

set_option maxRecDepth 16384

noncomputable section

namespace Cert.ReferenceIdeal.Stage

open Cert.ReferenceIdeal Cert.ReferenceIdeal.Gen
open Idealize.ShloMosaic Idealize.ShloMosaic.TcCoe Idealize.SL.Sem Idealize.ShloMosaic.StableHlo

variable {F : FTy → Type} [FloatOps F]

/-- Every edge's source node as a column of indices, a negative index moved up by the node count once. -/
def srcIdx (src : (⟨S3200000, .i32⟩ : BufTy).Contents (Elt F)) : (⟨S3200000x1, .i32⟩ : BufTy).Contents (Elt F) :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- Every edge's destination node as a column of indices. -/
def dstIdx (dst : (⟨S3200000, .i32⟩ : BufTy).Contents (Elt F)) : (⟨S3200000x1, .i32⟩ : BufTy).Contents (Elt F) :=
  broadcastInDim S3200000x1 ![0] bcast_S3200000_S3200000x1_0 dst

/-- Every node's in-degree. -/
def deg (dst : (⟨S3200000, .i32⟩ : BufTy).Contents (Elt F)) : (⟨S100000, .f32⟩ : BufTy).Contents (Elt F) :=
  Host.scatterAdd scatter_S100000_S3200000x1_S3200000_n_0_0_1 (broadcastInDim S100000 ![] bcast_S_S100000 (constant S_ .f32 0x00000000#32))
    (dstIdx dst) (broadcastInDim S3200000 ![] bcast_S_S3200000 (constant S_ .f32 0x3F800000#32))

/-- max(in-degree, 1), as a column. -/
def degMax (dst : (⟨S3200000, .i32⟩ : BufTy).Contents (Elt F)) : (⟨S100000x1, .f32⟩ : BufTy).Contents (Elt F) :=
  broadcastInDim S100000x1 ![0] bcast_S100000_S100000x1_0
    (maximumf (deg dst) (broadcastInDim S100000 ![] bcast_S_S100000 (constant S_ .f32 0x3F800000#32)))

/-- Rows of a 32-column array gathered along the edges' sources and summed into the edges' destinations. -/
def agg32 (h : (⟨S100000x32, .f32⟩ : BufTy).Contents (Elt F)) (src dst : (⟨S3200000, .i32⟩ : BufTy).Contents (Elt F)) : (⟨S100000x32, .f32⟩ : BufTy).Contents (Elt F) :=
  Host.scatterAdd scatter_S100000x32_S3200000x1_S3200000x32_1_0_0_1 (broadcastInDim S100000x32 ![] bcast_S_S100000x32 (constant S_ .f32 0x00000000#32))
    (dstIdx dst) (Host.gather gather_S100000x32_S3200000x1_S3200000x32_1_0_n_n_0_1_132 h (srcIdx src))

/-- The same for an 8-column array. -/
def agg8 (h : (⟨S100000x8, .f32⟩ : BufTy).Contents (Elt F)) (src dst : (⟨S3200000, .i32⟩ : BufTy).Contents (Elt F)) : (⟨S100000x8, .f32⟩ : BufTy).Contents (Elt F) :=
  Host.scatterAdd scatter_S100000x8_S3200000x1_S3200000x8_1_0_0_1 (broadcastInDim S100000x8 ![] bcast_S_S100000x8 (constant S_ .f32 0x00000000#32))
    (dstIdx dst) (Host.gather gather_S100000x8_S3200000x1_S3200000x8_1_0_n_n_0_1_18 h (srcIdx src))

/-- The features against one transposed first-layer weight matrix. -/
def dotT1 (x : (⟨S100000x768, .f32⟩ : BufTy).Contents (Elt F)) (w : (⟨S32x768, .f32⟩ : BufTy).Contents (Elt F)) : (⟨S100000x32, .f32⟩ : BufTy).Contents (Elt F) :=
  Host.dotGeneral dot_S100000x768_S768x32_S100000x32_1_0_0_1_n_n none x (transpose S768x32 [1, 0] w transposes_S32x768_S768x32_1_0)

/-- The hidden layer against one transposed second-layer weight matrix. -/
def dotT2 (h : (⟨S100000x32, .f32⟩ : BufTy).Contents (Elt F)) (w : (⟨S8x32, .f32⟩ : BufTy).Contents (Elt F)) : (⟨S100000x8, .f32⟩ : BufTy).Contents (Elt F) :=
  Host.dotGeneral dot_S100000x32_S32x8_S100000x8_1_0_0_1_n_n none h (transpose S32x8 [1, 0] w transposes_S8x32_S32x8_1_0)

/-- The first layer before its rectifier. -/
def hidden (x : (⟨S100000x768, .f32⟩ : BufTy).Contents (Elt F)) (src dst : (⟨S3200000, .i32⟩ : BufTy).Contents (Elt F)) (ws wn : (⟨S32x768, .f32⟩ : BufTy).Contents (Elt F)) (b : (⟨S32, .f32⟩ : BufTy).Contents (Elt F)) : (⟨S100000x32, .f32⟩ : BufTy).Contents (Elt F) :=
  addf (addf (dotT1 x ws)
      (Host.divf (agg32 (dotT1 x wn) src dst) (broadcastInDim S100000x32 ![0, 1] bcast_S100000x1_S100000x32_0_1 (degMax dst))))
    (broadcastInDim S100000x32 ![0, 1] bcast_S1x32_S100000x32_0_1 (broadcastInDim S1x32 ![1] bcast_S32_S1x32_1 b))

/-- The rectifier: the maximum with zero. -/
def relu (x : (⟨S100000x32, .f32⟩ : BufTy).Contents (Elt F)) : (⟨S100000x32, .f32⟩ : BufTy).Contents (Elt F) :=
  maximumf x (broadcastInDim S100000x32 ![] bcast_S_S100000x32 (constant S_ .f32 0x00000000#32))

/-- The second layer. -/
def logits (h : (⟨S100000x32, .f32⟩ : BufTy).Contents (Elt F)) (src dst : (⟨S3200000, .i32⟩ : BufTy).Contents (Elt F)) (ws wn : (⟨S8x32, .f32⟩ : BufTy).Contents (Elt F)) (b : (⟨S8, .f32⟩ : BufTy).Contents (Elt F)) : (⟨S100000x8, .f32⟩ : BufTy).Contents (Elt F) :=
  addf (addf (dotT2 h ws)
      (Host.divf (agg8 (dotT2 h wn) src dst) (broadcastInDim S100000x8 ![0, 1] bcast_S100000x1_S100000x8_0_1 (degMax dst))))
    (broadcastInDim S100000x8 ![0, 1] bcast_S1x8_S100000x8_0_1 (broadcastInDim S1x8 ![1] bcast_S8_S1x8_1 b))

/-- The whole reference. -/
def out (x : (⟨S100000x768, .f32⟩ : BufTy).Contents (Elt F)) (src dst : (⟨S3200000, .i32⟩ : BufTy).Contents (Elt F)) (ws1 wn1 : (⟨S32x768, .f32⟩ : BufTy).Contents (Elt F)) (b1 : (⟨S32, .f32⟩ : BufTy).Contents (Elt F))
    (ws2 wn2 : (⟨S8x32, .f32⟩ : BufTy).Contents (Elt F)) (b2 : (⟨S8, .f32⟩ : BufTy).Contents (Elt F)) : (⟨S100000x8, .f32⟩ : BufTy).Contents (Elt F) :=
  logits (relu (hidden x src dst ws1 wn1 b1)) src dst ws2 wn2 b2

/-- The generated run's result term is the stages' composition at the launch contents. -/
theorem res_eq (m : (ℓ : Loc nD τ sig) → Buf (Elt F) ℓ) (c : Dev nD) :
    Cert.ReferenceIdeal.Value.res_main_v54 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v54
  rfl

end Cert.ReferenceIdeal.Stage

end
-- ==== Proof.ScaleLaw.lean ====
/-
  Scaling by a reciprocal is dividing, for a divisor that is at least one.

  The kernel multiplies each row of the aggregated messages by 1 / max(deg, 1), where the reference divides the row
  by max(deg, 1). On the extended reals the ideal division by y is the product with y⁻¹ whenever y ≠ 0, so the
  two agree as soon as the divisor is not zero — and max(d, 1) ≥ 1 > 0 whatever d is. No finiteness of the
  dividend is needed: the dividend is only ever multiplied by the same y⁻¹ on both sides.
-/
import Idealize.ShloMosaic.PureOps.Ideal
import Idealize.ShloMosaic.PureOps.Ideal.Laws
import Idealize.ShloMosaic.Lib.ValueIdx
import Idealize.ShloMosaic.Lib.Pipeline.Value

noncomputable section

namespace Cert.SageLaws

open Idealize.ShloMosaic Idealize.ShloMosaic.ValueIdx

/-- The word 0x3F800000 is the real number one. -/
theorem ofBits_one_f32 : Ideal.ofBits .f32 0x3F800000#32 = 1 := by
  simp [Ideal.ofBits, Ideal.ieee, -EReal.coe_mul]; norm_num

/-- A maximum with one is not zero. -/
theorem max_one_ne_zero (d : EReal) : max d 1 ≠ 0 := by
  intro h
  have h1 : (1 : EReal) ≤ max d 1 := le_max_right d 1
  rw [h] at h1
  exact absurd h1 (by norm_num)

/-- a · (1 / y) = a / y for y = max(d, 1), on the extended reals. -/
theorem mul_recip_eq_div (a d : EReal) : a * Ideal.div 1 (max d 1) = Ideal.div a (max d 1) := by
  unfold Ideal.div
  rw [if_neg (max_one_ne_zero d), if_neg (max_one_ne_zero d), one_mul]

end Cert.SageLaws

end
-- ==== Proof.Bridge.lean ====
/-
  The kernel's function is the reference's function.

  Both programs gather, sum along edges, add the bias and rectify with the same operations in the same order, so
  they agree as soon as their inputs to those operations agree. Two things differ. (1) Per layer the kernel forms
  ONE product with the two weight matrices stacked and splits the columns afterwards, where the reference forms
  two products: column q of the stacked product is Σₖ x(i, k) · stack(k, q), and stack(k, q) is self(q, k) for
  q below the half and neigh(q − half, k) above it, so each half IS the reference's product. (2) The kernel
  multiplies the aggregated rows by 1 / max(deg, 1), the reference divides them by max(deg, 1): equal on the
  extended reals because max(deg, 1) is never zero. Neither step needs the inputs to be finite.
-/
import proofs.«112956_j5523327943254_2_alg».proof.Proof.Fold
import proofs.«112956_j5523327943254_2_alg».proof.Proof.RefStages
import proofs.«112956_j5523327943254_2_alg».proof.Proof.ScaleLaw
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.ShloMosaic.ValueIdx
open scoped BigOperators

/-! ## Broadcasts read at an entry -/

/-- A vector over the nodes, broadcast to a column, reads the node's entry. -/
theorem row_apply (z : (⟨S100000, .f32⟩ : BufTy).Contents (Elt Ideal)) (j : S100000x1.Idx) :
    broadcastInDim S100000x1 ![0] bcast_S100000_S100000x1_0 z j = z (fun a => match a with | ⟨0, _⟩ => ⟨(j 0).val, (j 0).isLt⟩) :=
  broadcastInDim_apply _ bcast_S100000_S100000x1_0 z j _ (fun a => match a with
    | ⟨0, _⟩ => by show (j 0).val = if (100000 : Nat) = 1 then 0 else (j 0).val; rw [if_neg (by decide)])

/-- A column broadcast across 32 columns reads the row's entry of the column. -/
theorem col_apply1 (y : (⟨S100000x1, .f32⟩ : BufTy).Contents (Elt Ideal)) (i : S100000x32.Idx) :
    broadcastInDim S100000x32 ![0, 1] bcast_S100000x1_S100000x32_0_1 y i
      = y (fun a => match a with | ⟨0, _⟩ => ⟨(i 0).val, (i 0).isLt⟩ | ⟨1, _⟩ => ⟨0, Nat.one_pos⟩) :=
  broadcastInDim_apply _ bcast_S100000x1_S100000x32_0_1 y i _ (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- The same across 8 columns. -/
theorem col_apply2 (y : (⟨S100000x1, .f32⟩ : BufTy).Contents (Elt Ideal)) (i : S100000x8.Idx) :
    broadcastInDim S100000x8 ![0, 1] bcast_S100000x1_S100000x8_0_1 y i
      = y (fun a => match a with | ⟨0, _⟩ => ⟨(i 0).val, (i 0).isLt⟩ | ⟨1, _⟩ => ⟨0, Nat.one_pos⟩) :=
  broadcastInDim_apply _ bcast_S100000x1_S100000x8_0_1 y i _ (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- The splat of the word 0x3F800000 over the nodes reads one. -/
theorem one_apply (r : S100000.Idx) :
    broadcastInDim S100000 ![] bcast_S_S100000 (constant (F := Ideal) S_ .f32 0x3F800000#32) r = 1 := by
  rw [broadcastInDim_scalar_apply]
  exact Cert.SageLaws.ofBits_one_f32

/-! ## The first layer's products and scaling -/

section Layer1

/-- Entry (q, k) of a weight matrix. -/
abbrev wEntry1 (q : Fin 32) (k : Fin 768) : S32x768.Idx := fun a => match a with
  | ⟨0, _⟩ => ⟨q.val, q.isLt⟩
  | ⟨1, _⟩ => ⟨k.val, k.isLt⟩
/-- Entry (k, q) of the stacked, transposed matrix, for a column q of its left ("self") half … -/
abbrev catSelf1 (q : Fin 32) (k : Fin 768) : S768x64.Idx := fun a => match a with
  | ⟨0, _⟩ => ⟨k.val, k.isLt⟩
  | ⟨1, _⟩ => ⟨q.val, by have h := q.isLt; show q.val < 64; omega⟩
/-- … and for column q of its right ("neighbour") half, which sits 32 columns further. -/
abbrev catNeigh1 (q : Fin 32) (k : Fin 768) : S768x64.Idx := fun a => match a with
  | ⟨0, _⟩ => ⟨k.val, k.isLt⟩
  | ⟨1, _⟩ => ⟨q.val + 32, by show q.val + 32 < 64; omega⟩

/-- The stack's left half is the "self" matrix transposed: narrowing is the identity on extended reals, a transpose
    swaps the coordinates, and rows 0 … 31 of the stack are the first piece. -/
theorem wcat_self1 (ws wn : (⟨S32x768, .f32⟩ : BufTy).Contents (Elt Ideal)) (q : Fin 32) (k : Fin 768) :
    Cert.KernelIdeal.Fold.wcat1 (F := Ideal) ws wn (catSelf1 q k) = ws (wEntry1 q k) := by
  unfold Cert.KernelIdeal.Fold.wcat1
  rw [truncf_apply, transpose_apply [1, 0] _ transposes_S64x768_S768x64_1_0 (catSelf1 q k)
    (fun a => match a with | ⟨0, _⟩ => ⟨q.val, by have h := q.isLt; show q.val < 64; omega⟩ | ⟨1, _⟩ => ⟨k.val, k.isLt⟩)
    (fun b => match b with | ⟨0, _⟩ => rfl | ⟨1, _⟩ => rfl)]
  exact concatenate_pair_apply_left (0 : Fin S64x768.rank) ws wn concatenates_S32x768_S32x768_S64x768_d0 _ rfl (wEntry1 q k)
    (fun b => match b with | ⟨0, _⟩ => rfl | ⟨1, _⟩ => rfl)

/-- The stack's right half is the "neighbour" matrix transposed: rows 32 … 63 of the stack are the second piece. -/
theorem wcat_neigh1 (ws wn : (⟨S32x768, .f32⟩ : BufTy).Contents (Elt Ideal)) (q : Fin 32) (k : Fin 768) :
    Cert.KernelIdeal.Fold.wcat1 (F := Ideal) ws wn (catNeigh1 q k) = wn (wEntry1 q k) := by
  unfold Cert.KernelIdeal.Fold.wcat1
  rw [truncf_apply, transpose_apply [1, 0] _ transposes_S64x768_S768x64_1_0 (catNeigh1 q k)
    (fun a => match a with | ⟨0, _⟩ => ⟨q.val + 32, by show q.val + 32 < 64; omega⟩ | ⟨1, _⟩ => ⟨k.val, k.isLt⟩)
    (fun b => match b with | ⟨0, _⟩ => rfl | ⟨1, _⟩ => rfl)]
  exact concatenate_pair_apply_right (0 : Fin S64x768.rank) ws wn concatenates_S32x768_S32x768_S64x768_d0 _ rfl rfl (wEntry1 q k)
    (fun b hb => match b with | ⟨0, _⟩ => absurd rfl hb | ⟨1, _⟩ => rfl) rfl

/-- Entry (i₀, k) of the left operand. -/
abbrev xEntry1 (i : S100000x32.Idx) (k : Fin 768) : S100000x768.Idx := fun a => match a with
  | ⟨0, _⟩ => ⟨(i 0).val, (i 0).isLt⟩
  | ⟨1, _⟩ => ⟨k.val, k.isLt⟩

theorem rlhs01 (i : S100000x32.Idx) (q : Cert.ReferenceIdeal.dot_S100000x768_S768x32_S100000x32_1_0_0_1_n_n.contr.Idx) : (Cert.ReferenceIdeal.dot_S100000x768_S768x32_S100000x32_1_0_0_1_n_n.lhsIdx i q 0).val = (i 0).val := by
  unfold DotDims.lhsIdx
  rw [dif_neg (show ¬(0 : Fin S100000x768.rank) ∈ Cert.ReferenceIdeal.dot_S100000x768_S768x32_S100000x32_1_0_0_1_n_n.lhsBatch by decide), dif_pos (show (0 : Fin S100000x768.rank) ∈ Cert.ReferenceIdeal.dot_S100000x768_S768x32_S100000x32_1_0_0_1_n_n.lhsNonContracting by decide)]
  rfl
theorem rlhs11 (i : S100000x32.Idx) (q : Cert.ReferenceIdeal.dot_S100000x768_S768x32_S100000x32_1_0_0_1_n_n.contr.Idx) : (Cert.ReferenceIdeal.dot_S100000x768_S768x32_S100000x32_1_0_0_1_n_n.lhsIdx i q 1).val = (q ⟨0, by decide⟩).val :=
  Cert.ReferenceIdeal.dot_S100000x768_S768x32_S100000x32_1_0_0_1_n_n.lhsIdx_val_of_single rfl i q
theorem rrhs01 (i : S100000x32.Idx) (q : Cert.ReferenceIdeal.dot_S100000x768_S768x32_S100000x32_1_0_0_1_n_n.contr.Idx) : (Cert.ReferenceIdeal.dot_S100000x768_S768x32_S100000x32_1_0_0_1_n_n.rhsIdx i q 0).val = (q ⟨0, by decide⟩).val :=
  Cert.ReferenceIdeal.dot_S100000x768_S768x32_S100000x32_1_0_0_1_n_n.rhsIdx_val_of_single rfl i q
theorem rrhs11 (i : S100000x32.Idx) (q : Cert.ReferenceIdeal.dot_S100000x768_S768x32_S100000x32_1_0_0_1_n_n.contr.Idx) : (Cert.ReferenceIdeal.dot_S100000x768_S768x32_S100000x32_1_0_0_1_n_n.rhsIdx i q 1).val = (i 1).val := by
  unfold DotDims.rhsIdx
  rw [dif_neg (show ¬(1 : Fin Cert.ReferenceIdeal.S768x32.rank) ∈ Cert.ReferenceIdeal.dot_S100000x768_S768x32_S100000x32_1_0_0_1_n_n.rhsBatch by decide), dif_pos (show (1 : Fin Cert.ReferenceIdeal.S768x32.rank) ∈ Cert.ReferenceIdeal.dot_S100000x768_S768x32_S100000x32_1_0_0_1_n_n.rhsNonContracting by decide)]
  rfl

/-- The reference's product with a transposed weight matrix, at an entry: row i₀ of the left operand against row i₁
    of the weight matrix. -/
theorem dotT_apply1 (x : (⟨S100000x768, .f32⟩ : BufTy).Contents (Elt Ideal)) (w : (⟨S32x768, .f32⟩ : BufTy).Contents (Elt Ideal)) (i : S100000x32.Idx) :
    Cert.ReferenceIdeal.Stage.dotT1 (F := Ideal) x w i = ∑ k : Fin 768, x (xEntry1 i k) * w (wEntry1 ⟨(i 1).val, (i 1).isLt⟩ k) := by
  unfold Cert.ReferenceIdeal.Stage.dotT1
  simp only [Host.dotGeneral]
  rw [Ideal.dotGeneral_apply, ← Equiv.sum_comp (contrEquiv1 Cert.ReferenceIdeal.dot_S100000x768_S768x32_S100000x32_1_0_0_1_n_n 768 rfl rfl).symm]
  refine Finset.sum_congr rfl fun k _ => ?_
  have hk := contrEquiv1_symm_val Cert.ReferenceIdeal.dot_S100000x768_S768x32_S100000x32_1_0_0_1_n_n 768 rfl rfl k
  have el : Cert.ReferenceIdeal.dot_S100000x768_S768x32_S100000x32_1_0_0_1_n_n.lhsIdx i ((contrEquiv1 Cert.ReferenceIdeal.dot_S100000x768_S768x32_S100000x32_1_0_0_1_n_n 768 rfl rfl).symm k) = xEntry1 i k := funext fun a => Fin.ext (by
    match a with
    | ⟨0, _⟩ => exact rlhs01 _ _
    | ⟨1, _⟩ => exact (rlhs11 _ _).trans hk)
  rw [el]
  refine congrArg (x (xEntry1 i k) * ·) ?_
  refine transpose_apply [1, 0] w _ _ (wEntry1 ⟨(i 1).val, (i 1).isLt⟩ k) (fun b => ?_)
  match b with
  | ⟨0, _⟩ => exact ((rrhs01 _ _).trans hk).symm
  | ⟨1, _⟩ => exact (rrhs11 _ _).symm

/-- Entry (i₀, i₁) of the stacked product, for a column of its left half … -/
abbrev colSelf1 (i : S100000x32.Idx) : S100000x64.Idx := fun a => match a with
  | ⟨0, _⟩ => ⟨(i 0).val, (i 0).isLt⟩
  | ⟨1, _⟩ => ⟨(i 1).val, by have h : (i 1).val < 32 := (i 1).isLt; show (i 1).val < 64; omega⟩
/-- … and of its right half. -/
abbrev colNeigh1 (i : S100000x32.Idx) : S100000x64.Idx := fun a => match a with
  | ⟨0, _⟩ => ⟨(i 0).val, (i 0).isLt⟩
  | ⟨1, _⟩ => ⟨(i 1).val + 32, by have h : (i 1).val < 32 := (i 1).isLt; show (i 1).val + 32 < 64; omega⟩

/-- The left half of the product with the stack is the product with the "self" matrix transposed. -/
theorem slice_self1 (x : (⟨S100000x768, .f32⟩ : BufTy).Contents (Elt Ideal)) (ws wn : (⟨S32x768, .f32⟩ : BufTy).Contents (Elt Ideal)) :
    extractStridedSlice S100000x32 ![0, 0] (Cert.KernelIdeal.Proj1.prod x (Cert.KernelIdeal.Fold.wcat1 (F := Ideal) ws wn)) slices_S100000x64_S100000x32_0_0
      = Cert.ReferenceIdeal.Stage.dotT1 (F := Ideal) x ws := by
  funext i
  rw [extractStridedSlice_apply ![0, 0] _ slices_S100000x64_S100000x32_0_0 i (colSelf1 i)
    (fun a => match a with | ⟨0, _⟩ => by show (i 0).val = 0 + (i 0).val; omega | ⟨1, _⟩ => by show (i 1).val = 0 + (i 1).val; omega),
    dotT_apply1]
  unfold Cert.KernelIdeal.Proj1.prod
  refine Finset.sum_congr rfl fun k _ => ?_
  exact congrArg (x (xEntry1 i k) * ·) (wcat_self1 ws wn ⟨(i 1).val, (i 1).isLt⟩ k)

/-- The right half of the product with the stack is the product with the "neighbour" matrix transposed. -/
theorem slice_neigh1 (x : (⟨S100000x768, .f32⟩ : BufTy).Contents (Elt Ideal)) (ws wn : (⟨S32x768, .f32⟩ : BufTy).Contents (Elt Ideal)) :
    extractStridedSlice S100000x32 ![0, 32] (Cert.KernelIdeal.Proj1.prod x (Cert.KernelIdeal.Fold.wcat1 (F := Ideal) ws wn)) slices_S100000x64_S100000x32_0_32
      = Cert.ReferenceIdeal.Stage.dotT1 (F := Ideal) x wn := by
  funext i
  rw [extractStridedSlice_apply ![0, 32] _ slices_S100000x64_S100000x32_0_32 i (colNeigh1 i)
    (fun a => match a with | ⟨0, _⟩ => by show (i 0).val = 0 + (i 0).val; omega | ⟨1, _⟩ => by show (i 1).val + 32 = 32 + (i 1).val; omega),
    dotT_apply1]
  unfold Cert.KernelIdeal.Proj1.prod
  refine Finset.sum_congr rfl fun k _ => ?_
  exact congrArg (x (xEntry1 i k) * ·) (wcat_neigh1 ws wn ⟨(i 1).val, (i 1).isLt⟩ k)

/-- Scaling a 32-column array's rows by 1 / max(d, 1) is dividing them by max(d, 1). -/
theorem scale_eq_div1 (a : (⟨S100000x32, .f32⟩ : BufTy).Contents (Elt Ideal)) (d : (⟨S100000, .f32⟩ : BufTy).Contents (Elt Ideal)) :
    mulf a (broadcastInDim S100000x32 ![0, 1] bcast_S100000x1_S100000x32_0_1 (broadcastInDim S100000x1 ![0] bcast_S100000_S100000x1_0
        (Host.divf (broadcastInDim S100000 ![] bcast_S_S100000 (constant (F := Ideal) S_ .f32 0x3F800000#32))
          (maximumf d (broadcastInDim S100000 ![] bcast_S_S100000 (constant (F := Ideal) S_ .f32 0x3F800000#32))))))
      = Host.divf a (broadcastInDim S100000x32 ![0, 1] bcast_S100000x1_S100000x32_0_1 (broadcastInDim S100000x1 ![0] bcast_S100000_S100000x1_0
          (maximumf d (broadcastInDim S100000 ![] bcast_S_S100000 (constant (F := Ideal) S_ .f32 0x3F800000#32))))) := by
  funext i
  rw [mulf_apply, hostDivf_apply, col_apply1, col_apply1, row_apply, row_apply, hostDivf_apply, maximumf_apply, one_apply]
  exact Cert.SageLaws.mul_recip_eq_div _ _

end Layer1

/-! ## The second layer's products and scaling -/

section Layer2

/-- Entry (q, k) of a weight matrix. -/
abbrev wEntry2 (q : Fin 8) (k : Fin 32) : S8x32.Idx := fun a => match a with
  | ⟨0, _⟩ => ⟨q.val, q.isLt⟩
  | ⟨1, _⟩ => ⟨k.val, k.isLt⟩
/-- Entry (k, q) of the stacked, transposed matrix, for a column q of its left ("self") half … -/
abbrev catSelf2 (q : Fin 8) (k : Fin 32) : S32x16.Idx := fun a => match a with
  | ⟨0, _⟩ => ⟨k.val, k.isLt⟩
  | ⟨1, _⟩ => ⟨q.val, by have h := q.isLt; show q.val < 16; omega⟩
/-- … and for column q of its right ("neighbour") half, which sits 8 columns further. -/
abbrev catNeigh2 (q : Fin 8) (k : Fin 32) : S32x16.Idx := fun a => match a with
  | ⟨0, _⟩ => ⟨k.val, k.isLt⟩
  | ⟨1, _⟩ => ⟨q.val + 8, by show q.val + 8 < 16; omega⟩

/-- The stack's left half is the "self" matrix transposed: narrowing is the identity on extended reals, a transpose
    swaps the coordinates, and rows 0 … 7 of the stack are the first piece. -/
theorem wcat_self2 (ws wn : (⟨S8x32, .f32⟩ : BufTy).Contents (Elt Ideal)) (q : Fin 8) (k : Fin 32) :
    Cert.KernelIdeal.Fold.wcat2 (F := Ideal) ws wn (catSelf2 q k) = ws (wEntry2 q k) := by
  unfold Cert.KernelIdeal.Fold.wcat2
  rw [truncf_apply, transpose_apply [1, 0] _ transposes_S16x32_S32x16_1_0 (catSelf2 q k)
    (fun a => match a with | ⟨0, _⟩ => ⟨q.val, by have h := q.isLt; show q.val < 16; omega⟩ | ⟨1, _⟩ => ⟨k.val, k.isLt⟩)
    (fun b => match b with | ⟨0, _⟩ => rfl | ⟨1, _⟩ => rfl)]
  exact concatenate_pair_apply_left (0 : Fin S16x32.rank) ws wn concatenates_S8x32_S8x32_S16x32_d0 _ rfl (wEntry2 q k)
    (fun b => match b with | ⟨0, _⟩ => rfl | ⟨1, _⟩ => rfl)

/-- The stack's right half is the "neighbour" matrix transposed: rows 8 … 15 of the stack are the second piece. -/
theorem wcat_neigh2 (ws wn : (⟨S8x32, .f32⟩ : BufTy).Contents (Elt Ideal)) (q : Fin 8) (k : Fin 32) :
    Cert.KernelIdeal.Fold.wcat2 (F := Ideal) ws wn (catNeigh2 q k) = wn (wEntry2 q k) := by
  unfold Cert.KernelIdeal.Fold.wcat2
  rw [truncf_apply, transpose_apply [1, 0] _ transposes_S16x32_S32x16_1_0 (catNeigh2 q k)
    (fun a => match a with | ⟨0, _⟩ => ⟨q.val + 8, by show q.val + 8 < 16; omega⟩ | ⟨1, _⟩ => ⟨k.val, k.isLt⟩)
    (fun b => match b with | ⟨0, _⟩ => rfl | ⟨1, _⟩ => rfl)]
  exact concatenate_pair_apply_right (0 : Fin S16x32.rank) ws wn concatenates_S8x32_S8x32_S16x32_d0 _ rfl rfl (wEntry2 q k)
    (fun b hb => match b with | ⟨0, _⟩ => absurd rfl hb | ⟨1, _⟩ => rfl) rfl

/-- Entry (i₀, k) of the left operand. -/
abbrev xEntry2 (i : S100000x8.Idx) (k : Fin 32) : S100000x32.Idx := fun a => match a with
  | ⟨0, _⟩ => ⟨(i 0).val, (i 0).isLt⟩
  | ⟨1, _⟩ => ⟨k.val, k.isLt⟩

theorem rlhs02 (i : S100000x8.Idx) (q : Cert.ReferenceIdeal.dot_S100000x32_S32x8_S100000x8_1_0_0_1_n_n.contr.Idx) : (Cert.ReferenceIdeal.dot_S100000x32_S32x8_S100000x8_1_0_0_1_n_n.lhsIdx i q 0).val = (i 0).val := by
  unfold DotDims.lhsIdx
  rw [dif_neg (show ¬(0 : Fin S100000x32.rank) ∈ Cert.ReferenceIdeal.dot_S100000x32_S32x8_S100000x8_1_0_0_1_n_n.lhsBatch by decide), dif_pos (show (0 : Fin S100000x32.rank) ∈ Cert.ReferenceIdeal.dot_S100000x32_S32x8_S100000x8_1_0_0_1_n_n.lhsNonContracting by decide)]
  rfl
theorem rlhs12 (i : S100000x8.Idx) (q : Cert.ReferenceIdeal.dot_S100000x32_S32x8_S100000x8_1_0_0_1_n_n.contr.Idx) : (Cert.ReferenceIdeal.dot_S100000x32_S32x8_S100000x8_1_0_0_1_n_n.lhsIdx i q 1).val = (q ⟨0, by decide⟩).val :=
  Cert.ReferenceIdeal.dot_S100000x32_S32x8_S100000x8_1_0_0_1_n_n.lhsIdx_val_of_single rfl i q
theorem rrhs02 (i : S100000x8.Idx) (q : Cert.ReferenceIdeal.dot_S100000x32_S32x8_S100000x8_1_0_0_1_n_n.contr.Idx) : (Cert.ReferenceIdeal.dot_S100000x32_S32x8_S100000x8_1_0_0_1_n_n.rhsIdx i q 0).val = (q ⟨0, by decide⟩).val :=
  Cert.ReferenceIdeal.dot_S100000x32_S32x8_S100000x8_1_0_0_1_n_n.rhsIdx_val_of_single rfl i q
theorem rrhs12 (i : S100000x8.Idx) (q : Cert.ReferenceIdeal.dot_S100000x32_S32x8_S100000x8_1_0_0_1_n_n.contr.Idx) : (Cert.ReferenceIdeal.dot_S100000x32_S32x8_S100000x8_1_0_0_1_n_n.rhsIdx i q 1).val = (i 1).val := by
  unfold DotDims.rhsIdx
  rw [dif_neg (show ¬(1 : Fin Cert.ReferenceIdeal.S32x8.rank) ∈ Cert.ReferenceIdeal.dot_S100000x32_S32x8_S100000x8_1_0_0_1_n_n.rhsBatch by decide), dif_pos (show (1 : Fin Cert.ReferenceIdeal.S32x8.rank) ∈ Cert.ReferenceIdeal.dot_S100000x32_S32x8_S100000x8_1_0_0_1_n_n.rhsNonContracting by decide)]
  rfl

/-- The reference's product with a transposed weight matrix, at an entry: row i₀ of the left operand against row i₁
    of the weight matrix. -/
theorem dotT_apply2 (x : (⟨S100000x32, .f32⟩ : BufTy).Contents (Elt Ideal)) (w : (⟨S8x32, .f32⟩ : BufTy).Contents (Elt Ideal)) (i : S100000x8.Idx) :
    Cert.ReferenceIdeal.Stage.dotT2 (F := Ideal) x w i = ∑ k : Fin 32, x (xEntry2 i k) * w (wEntry2 ⟨(i 1).val, (i 1).isLt⟩ k) := by
  unfold Cert.ReferenceIdeal.Stage.dotT2
  simp only [Host.dotGeneral]
  rw [Ideal.dotGeneral_apply, ← Equiv.sum_comp (contrEquiv1 Cert.ReferenceIdeal.dot_S100000x32_S32x8_S100000x8_1_0_0_1_n_n 32 rfl rfl).symm]
  refine Finset.sum_congr rfl fun k _ => ?_
  have hk := contrEquiv1_symm_val Cert.ReferenceIdeal.dot_S100000x32_S32x8_S100000x8_1_0_0_1_n_n 32 rfl rfl k
  have el : Cert.ReferenceIdeal.dot_S100000x32_S32x8_S100000x8_1_0_0_1_n_n.lhsIdx i ((contrEquiv1 Cert.ReferenceIdeal.dot_S100000x32_S32x8_S100000x8_1_0_0_1_n_n 32 rfl rfl).symm k) = xEntry2 i k := funext fun a => Fin.ext (by
    match a with
    | ⟨0, _⟩ => exact rlhs02 _ _
    | ⟨1, _⟩ => exact (rlhs12 _ _).trans hk)
  rw [el]
  refine congrArg (x (xEntry2 i k) * ·) ?_
  refine transpose_apply [1, 0] w _ _ (wEntry2 ⟨(i 1).val, (i 1).isLt⟩ k) (fun b => ?_)
  match b with
  | ⟨0, _⟩ => exact ((rrhs02 _ _).trans hk).symm
  | ⟨1, _⟩ => exact (rrhs12 _ _).symm

/-- Entry (i₀, i₁) of the stacked product, for a column of its left half … -/
abbrev colSelf2 (i : S100000x8.Idx) : S100000x16.Idx := fun a => match a with
  | ⟨0, _⟩ => ⟨(i 0).val, (i 0).isLt⟩
  | ⟨1, _⟩ => ⟨(i 1).val, by have h : (i 1).val < 8 := (i 1).isLt; show (i 1).val < 16; omega⟩
/-- … and of its right half. -/
abbrev colNeigh2 (i : S100000x8.Idx) : S100000x16.Idx := fun a => match a with
  | ⟨0, _⟩ => ⟨(i 0).val, (i 0).isLt⟩
  | ⟨1, _⟩ => ⟨(i 1).val + 8, by have h : (i 1).val < 8 := (i 1).isLt; show (i 1).val + 8 < 16; omega⟩

/-- The left half of the product with the stack is the product with the "self" matrix transposed. -/
theorem slice_self2 (x : (⟨S100000x32, .f32⟩ : BufTy).Contents (Elt Ideal)) (ws wn : (⟨S8x32, .f32⟩ : BufTy).Contents (Elt Ideal)) :
    extractStridedSlice S100000x8 ![0, 0] (Cert.KernelIdeal.Proj2.prod x (Cert.KernelIdeal.Fold.wcat2 (F := Ideal) ws wn)) slices_S100000x16_S100000x8_0_0
      = Cert.ReferenceIdeal.Stage.dotT2 (F := Ideal) x ws := by
  funext i
  rw [extractStridedSlice_apply ![0, 0] _ slices_S100000x16_S100000x8_0_0 i (colSelf2 i)
    (fun a => match a with | ⟨0, _⟩ => by show (i 0).val = 0 + (i 0).val; omega | ⟨1, _⟩ => by show (i 1).val = 0 + (i 1).val; omega),
    dotT_apply2]
  unfold Cert.KernelIdeal.Proj2.prod
  refine Finset.sum_congr rfl fun k _ => ?_
  exact congrArg (x (xEntry2 i k) * ·) (wcat_self2 ws wn ⟨(i 1).val, (i 1).isLt⟩ k)

/-- The right half of the product with the stack is the product with the "neighbour" matrix transposed. -/
theorem slice_neigh2 (x : (⟨S100000x32, .f32⟩ : BufTy).Contents (Elt Ideal)) (ws wn : (⟨S8x32, .f32⟩ : BufTy).Contents (Elt Ideal)) :
    extractStridedSlice S100000x8 ![0, 8] (Cert.KernelIdeal.Proj2.prod x (Cert.KernelIdeal.Fold.wcat2 (F := Ideal) ws wn)) slices_S100000x16_S100000x8_0_8
      = Cert.ReferenceIdeal.Stage.dotT2 (F := Ideal) x wn := by
  funext i
  rw [extractStridedSlice_apply ![0, 8] _ slices_S100000x16_S100000x8_0_8 i (colNeigh2 i)
    (fun a => match a with | ⟨0, _⟩ => by show (i 0).val = 0 + (i 0).val; omega | ⟨1, _⟩ => by show (i 1).val + 8 = 8 + (i 1).val; omega),
    dotT_apply2]
  unfold Cert.KernelIdeal.Proj2.prod
  refine Finset.sum_congr rfl fun k _ => ?_
  exact congrArg (x (xEntry2 i k) * ·) (wcat_neigh2 ws wn ⟨(i 1).val, (i 1).isLt⟩ k)

/-- Scaling a 8-column array's rows by 1 / max(d, 1) is dividing them by max(d, 1). -/
theorem scale_eq_div2 (a : (⟨S100000x8, .f32⟩ : BufTy).Contents (Elt Ideal)) (d : (⟨S100000, .f32⟩ : BufTy).Contents (Elt Ideal)) :
    mulf a (broadcastInDim S100000x8 ![0, 1] bcast_S100000x1_S100000x8_0_1 (broadcastInDim S100000x1 ![0] bcast_S100000_S100000x1_0
        (Host.divf (broadcastInDim S100000 ![] bcast_S_S100000 (constant (F := Ideal) S_ .f32 0x3F800000#32))
          (maximumf d (broadcastInDim S100000 ![] bcast_S_S100000 (constant (F := Ideal) S_ .f32 0x3F800000#32))))))
      = Host.divf a (broadcastInDim S100000x8 ![0, 1] bcast_S100000x1_S100000x8_0_1 (broadcastInDim S100000x1 ![0] bcast_S100000_S100000x1_0
          (maximumf d (broadcastInDim S100000 ![] bcast_S_S100000 (constant (F := Ideal) S_ .f32 0x3F800000#32))))) := by
  funext i
  rw [mulf_apply, hostDivf_apply, col_apply2, col_apply2, row_apply, row_apply, hostDivf_apply, maximumf_apply, one_apply]
  exact Cert.SageLaws.mul_recip_eq_div _ _

end Layer2

/-! ## The shared host operations are the same functions in both programs -/

theorem deg_eq (dst : (⟨S3200000, .i32⟩ : BufTy).Contents (Elt Ideal)) :
    Cert.KernelIdeal.Fold.deg (F := Ideal) dst = Cert.ReferenceIdeal.Stage.deg (F := Ideal) dst := rfl
theorem agg32_eq (h : (⟨S100000x32, .f32⟩ : BufTy).Contents (Elt Ideal)) (src dst : (⟨S3200000, .i32⟩ : BufTy).Contents (Elt Ideal)) :
    Cert.KernelIdeal.Fold.agg32 (F := Ideal) h src dst = Cert.ReferenceIdeal.Stage.agg32 (F := Ideal) h src dst := rfl
theorem agg8_eq (h : (⟨S100000x8, .f32⟩ : BufTy).Contents (Elt Ideal)) (src dst : (⟨S3200000, .i32⟩ : BufTy).Contents (Elt Ideal)) :
    Cert.KernelIdeal.Fold.agg8 (F := Ideal) h src dst = Cert.ReferenceIdeal.Stage.agg8 (F := Ideal) h src dst := rfl

/-! ## The layers, and the whole -/

/-- The first layer before its rectifier. -/
theorem hidden_eq (x : (⟨S100000x768, .f32⟩ : BufTy).Contents (Elt Ideal)) (src dst : (⟨S3200000, .i32⟩ : BufTy).Contents (Elt Ideal))
    (ws wn : (⟨S32x768, .f32⟩ : BufTy).Contents (Elt Ideal)) (b : (⟨S32, .f32⟩ : BufTy).Contents (Elt Ideal)) :
    Cert.KernelIdeal.Fold.hidden (F := Ideal) (Cert.KernelIdeal.Proj1.prod x (Cert.KernelIdeal.Fold.wcat1 (F := Ideal) ws wn)) src dst b
      = Cert.ReferenceIdeal.Stage.hidden (F := Ideal) x src dst ws wn b := by
  unfold Cert.KernelIdeal.Fold.hidden Cert.ReferenceIdeal.Stage.hidden Cert.KernelIdeal.Fold.degInv Cert.ReferenceIdeal.Stage.degMax
  rw [slice_self1, slice_neigh1, scale_eq_div1, agg32_eq, deg_eq]

/-- The second layer. -/
theorem logits_eq (h : (⟨S100000x32, .f32⟩ : BufTy).Contents (Elt Ideal)) (src dst : (⟨S3200000, .i32⟩ : BufTy).Contents (Elt Ideal))
    (ws wn : (⟨S8x32, .f32⟩ : BufTy).Contents (Elt Ideal)) (b : (⟨S8, .f32⟩ : BufTy).Contents (Elt Ideal)) :
    Cert.KernelIdeal.Fold.logits (F := Ideal) (Cert.KernelIdeal.Proj2.prod h (Cert.KernelIdeal.Fold.wcat2 (F := Ideal) ws wn)) (Cert.KernelIdeal.Fold.degInv (F := Ideal) dst) src dst b
      = Cert.ReferenceIdeal.Stage.logits (F := Ideal) h src dst ws wn b := by
  unfold Cert.KernelIdeal.Fold.logits Cert.ReferenceIdeal.Stage.logits Cert.KernelIdeal.Fold.degInv Cert.ReferenceIdeal.Stage.degMax
  rw [slice_self2, slice_neigh2, scale_eq_div2, agg8_eq, deg_eq]

/-- The kernel's function of the nine arguments is the reference's. -/
theorem out_eq (x : (⟨S100000x768, .f32⟩ : BufTy).Contents (Elt Ideal)) (src dst : (⟨S3200000, .i32⟩ : BufTy).Contents (Elt Ideal))
    (ws1 wn1 : (⟨S32x768, .f32⟩ : BufTy).Contents (Elt Ideal)) (b1 : (⟨S32, .f32⟩ : BufTy).Contents (Elt Ideal))
    (ws2 wn2 : (⟨S8x32, .f32⟩ : BufTy).Contents (Elt Ideal)) (b2 : (⟨S8, .f32⟩ : BufTy).Contents (Elt Ideal)) :
    Cert.KernelIdeal.Fold.out x src dst ws1 wn1 b1 ws2 wn2 b2 = Cert.ReferenceIdeal.Stage.out (F := Ideal) x src dst ws1 wn1 b1 ws2 wn2 b2 := by
  unfold Cert.KernelIdeal.Fold.out Cert.ReferenceIdeal.Stage.out
  rw [hidden_eq]
  exact logits_eq _ src dst ws2 wn2 b2

end Cert.Bridge

end
-- ==== Proof.lean ====
/-
  A two-layer graph network with mean aggregation, as a kernel program and as its reference.

  Each layer is  out = x · Wselfᵀ + (Σ over incoming edges of (x · Wneighᵀ)[source]) / max(in-degree, 1) + bias,
  the first layer followed by a maximum with zero. The kernel program computes the two products of a layer as one
  product with the two weight matrices stacked, in a pipelined region over row blocks (bf16 operands, an f32
  accumulator started at zero), and scales the aggregated rows by the reciprocal 1 / max(in-degree, 1); the
  reference computes two products and divides. Read on the extended reals — narrowing to bf16 the identity, every
  operation exact — the two are the same function of the nine arguments:

  * the kernel's run ends with the result buffer at the composition of its stages (Proof/KernelRun.lean: the
    run with every buffer named; Proof/Region0.lean, Proof/Region1.lean: a region's output is the whole matrix
    product; Proof/Fold.lean: the host lines between and after the regions);
  * the reference's run ends with its result at the composition of its own stages (the generated run, and
    Proof/RefStages.lean);
  * the two compositions agree (Proof/Bridge.lean): each half of a stacked product is the corresponding separate
    product, and a · (1 / y) = a / y for y = max(d, 1), which is never zero (Proof/ScaleLaw.lean).

  The precondition (finite float inputs) is not used: no step moves a factor across a sum or cancels anything.
  The three frames are the generated ones (the reference's is its generated run with the result dropped), and the
  idealized kernel is the kernel's own text read at the ideal instance, so there is nothing to preserve.
-/
import proofs.«112956_j5523327943254_2_alg».proof.Defs
import proofs.«112956_j5523327943254_2_alg».proof.Proof.Gen.Kernel
import proofs.«112956_j5523327943254_2_alg».proof.Proof.Gen.Kernel.Frame
import proofs.«112956_j5523327943254_2_alg».proof.Proof.Gen.KernelIdeal
import proofs.«112956_j5523327943254_2_alg».proof.Proof.Gen.KernelIdeal.Frame
import proofs.«112956_j5523327943254_2_alg».proof.Proof.Gen.ReferenceIdeal
import proofs.«112956_j5523327943254_2_alg».proof.Proof.Gen.ReferenceIdeal.Run
import proofs.«112956_j5523327943254_2_alg».proof.Proof.Gen.Pre_finite_inputs
import proofs.«112956_j5523327943254_2_alg».proof.Proof.KernelRun
import proofs.«112956_j5523327943254_2_alg».proof.Proof.Fold
import proofs.«112956_j5523327943254_2_alg».proof.Proof.RefStages
import proofs.«112956_j5523327943254_2_alg».proof.Proof.Bridge

noncomputable section

namespace Cert.Proof

open Idealize.ShloMosaic Idealize.ShloMosaic.TcCoe Idealize.SL.Sem

/-- The kernel program as printed terminates without a fault and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs run, and both results are the kernel's
    function of the nine arguments: the kernel's by its run read through the segment fold, the reference's by its
    generated run and the agreement of the two functions. -/
theorem algebraic : Cert.algebraic_KernelIdeal_ReferenceIdeal := by
  intro m ρ m' ρ' _ hagree
  refine ⟨fun c => Cert.KernelIdeal.Fold.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Fold.result m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Stage.res_eq, e0, e1, e2, e3, e4, e5, e6, e7, e8]
    exact (Cert.Bridge.out_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
